-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S16x64x1024 : Shape := ⟨3, ![16, 64, 1024]⟩
abbrev S16x1x64 : Shape := ⟨3, ![16, 1, 64]⟩
abbrev S2x16x2048x64 : Shape := ⟨4, ![2, 16, 2048, 64]⟩
abbrev S1x2048x1024 : Shape := ⟨3, ![1, 2048, 1024]⟩
abbrev S1x64x1024 : Shape := ⟨3, ![1, 64, 1024]⟩
abbrev S1x1x64 : Shape := ⟨3, ![1, 1, 64]⟩
abbrev S1x1x2048x64 : Shape := ⟨4, ![1, 1, 2048, 64]⟩
abbrev S2048x1024 : Shape := ⟨2, ![2048, 1024]⟩
abbrev S64x1024 : Shape := ⟨2, ![64, 1024]⟩
abbrev S2048x64 : Shape := ⟨2, ![2048, 64]⟩
abbrev S1x64 : Shape := ⟨2, ![1, 64]⟩
abbrev S2x16x2048x2048 : Shape := ⟨4, ![2, 16, 2048, 2048]⟩
abbrev S1x1x512x64 : Shape := ⟨4, ![1, 1, 512, 64]⟩
abbrev S1x1x512x2048 : Shape := ⟨4, ![1, 1, 512, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S2x2048x16x64 : Shape := ⟨4, ![2, 2048, 16, 64]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 29
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16x64x1024, .f32⟩
  | .hbm, ⟨10, _⟩ => ⟨S16x64x1024, .bf16⟩
  | .hbm, ⟨11, _⟩ => ⟨S16x64x1024, .f32⟩
  | .hbm, ⟨12, _⟩ => ⟨S16x64x1024, .bf16⟩
  | .hbm, ⟨13, _⟩ => ⟨S16x64x1024, .f32⟩
  | .hbm, ⟨14, _⟩ => ⟨S16x64x1024, .bf16⟩
  | .hbm, ⟨15, _⟩ => ⟨S16x1x64, .f32⟩
  | .hbm, ⟨16, _⟩ => ⟨S16x1x64, .f32⟩
  | .hbm, ⟨17, _⟩ => ⟨S16x1x64, .f32⟩
  | .hbm, ⟨18, _⟩ => ⟨S2x16x2048x64, .bf16⟩
  | .hbm, ⟨19, _⟩ => ⟨S2x16x2048x64, .bf16⟩
  | .hbm, ⟨20, _⟩ => ⟨S2x16x2048x64, .bf16⟩
  | .hbm, ⟨21, _⟩ => ⟨S2x16x2048x64, .bf16⟩
  | .hbm, ⟨22, _⟩ => ⟨S2x16x2048x2048, .f32⟩
  | .hbm, ⟨23, _⟩ => ⟨S2x2048x16x64, .bf16⟩
  | .hbm, ⟨24, _⟩ => ⟨S4096x1024, .bf16⟩
  | .hbm, ⟨25, _⟩ => ⟨S1024x1024, .bf16⟩
  | .hbm, ⟨26, _⟩ => ⟨S1x1024, .f32⟩
  | .hbm, ⟨27, _⟩ => ⟨S4096x1024, .f32⟩
  | .hbm, ⟨28, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x64x1024, .bf16⟩
  | .local _ .vmem, ⟨3, _⟩ => ⟨S1x64x1024, .bf16⟩
  | .local _ .vmem, ⟨4, _⟩ => ⟨S1x1x64, .f32⟩
  | .local _ .vmem, ⟨5, _⟩ => ⟨S1x1x64, .f32⟩
  | .local _ .vmem, ⟨6, _⟩ => ⟨S1x64x1024, .bf16⟩
  | .local _ .vmem, ⟨7, _⟩ => ⟨S1x64x1024, .bf16⟩
  | .local _ .vmem, ⟨8, _⟩ => ⟨S1x1x64, .f32⟩
  | .local _ .vmem, ⟨9, _⟩ => ⟨S1x1x64, .f32⟩
  | .local _ .vmem, ⟨10, _⟩ => ⟨S1x64x1024, .bf16⟩
  | .local _ .vmem, ⟨11, _⟩ => ⟨S1x64x1024, .bf16⟩
  | .local _ .vmem, ⟨12, _⟩ => ⟨S1x1x64, .f32⟩
  | .local _ .vmem, ⟨13, _⟩ => ⟨S1x1x64, .f32⟩
  | .local _ .vmem, ⟨14, _⟩ => ⟨S1x1x2048x64, .bf16⟩
  | .local _ .vmem, ⟨15, _⟩ => ⟨S1x1x2048x64, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x512x64, .bf16⟩
  | .local _ .vmem, ⟨21, _⟩ => ⟨S1x1x512x64, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x1x2048x64, .bf16⟩
  | .local _ .vmem, ⟨25, _⟩ => ⟨S1x1x2048x64, .bf16⟩
  | .local _ .vmem, ⟨26, _⟩ => ⟨S1x1x512x64, .bf16⟩
  | .local _ .vmem, ⟨27, _⟩ => ⟨S1x1x512x64, .bf16⟩
  | .local _ .vmem, ⟨28, _⟩ => ⟨S1x1x512x2048, .f32⟩
  | .local _ .vmem, ⟨29, _⟩ => ⟨S1x1x512x2048, .f32⟩
  | .local _ .vmem, ⟨30, _⟩ => ⟨S512x1024, .bf16⟩
  | .local _ .vmem, ⟨31, _⟩ => ⟨S512x1024, .bf16⟩
  | .local _ .vmem, ⟨32, _⟩ => ⟨S1024x1024, .bf16⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1024x1024_S16x64x1024 : S1024x1024.ShapeCasts S16x64x1024
  bitsLt_bf16_f32 : FTy.bits .bf16 < FTy.bits .f32
  shapeCasts_S1024_S16x1x64 : S1024.ShapeCasts S16x1x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S2048x64 : S1x64.Broadcasts S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S2048x1024_S64x1024_S2048x64_1_1_0_0_n_n_wf : DotDims.WF S2048x1024 S64x1024 S2048x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S16x64x1024.size a
  hwx0_1 : ∀ i : grid0.Coords, EltTy.bits .bf16 = 32 ∨ (Rect.block (s := S16x64x1024) S1x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S16x1x64.size a
  hwx0_2 : ∀ i : grid0.Coords, EltTy.bits .f32 = 32 ∨ (Rect.block (s := S16x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S16x64x1024.size a
  hwx0_3 : ∀ i : grid0.Coords, EltTy.bits .bf16 = 32 ∨ (Rect.block (s := S16x64x1024) S1x64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S16x64x1024.size a
  hwx0_5 : ∀ i : grid0.Coords, EltTy.bits .bf16 = 32 ∨ (Rect.block (s := S16x64x1024) S1x64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S16x1x64.size a
  hwx0_6 : ∀ i : grid0.Coords, EltTy.bits .f32 = 32 ∨ (Rect.block (s := S16x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048x64.size a ≤ S2x16x2048x64.size a
  hwx0_7 : ∀ i : grid0.Coords, EltTy.bits .bf16 = 32 ∨ (Rect.block (s := S2x16x2048x64) S1x1x2048x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048x64.size a ≤ S2x16x2048x64.size a
  hwx0_8 : ∀ i : grid0.Coords, EltTy.bits .bf16 = 32 ∨ (Rect.block (s := S2x16x2048x64) S1x1x2048x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2048x64.size a ≤ S2x16x2048x64.size a
  hwx0_9 : ∀ i : grid0.Coords, EltTy.bits .bf16 = 32 ∨ (Rect.block (s := S2x16x2048x64) S1x1x2048x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x16x2048x64.size a
  hwx1_3 : ∀ i : grid1.Coords, EltTy.bits .bf16 = 32 ∨ (Rect.block (s := S2x16x2048x64) S1x1x512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x2048.size a ≤ S2x16x2048x2048.size a
  hwx1_4 : ∀ i : grid1.Coords, EltTy.bits .f32 = 32 ∨ (Rect.block (s := S2x16x2048x2048) S1x1x512x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x1x2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x1x2048x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x1x2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S1x1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S1x1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.NamedRun.lean ====
/-
  The idealized kernel's run with its two results named.

  The program is three kernel launches among stretches of host operations. Its buffers' contents at each boundary are
  a fold from the launch memory: a host stretch applies its operations, a launch leaves each of its arrays at what its
  write-backs produce. At the return every buffer the program keeps holds the last boundary's contents; read at the two
  result buffers this names what the program returns, beside the nine argument arrays, which end as launched.
-/
import proofs.«163356_j62843961475635_2_alg».proof.Proof.Gen.KernelIdeal.Frame

set_option maxRecDepth 16384

noncomputable section

namespace Cert.Mha.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the return the two result buffers hold
    the last boundary's contents and the argument arrays are as launched. -/
theorem run_named : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_v10_1) = W6 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       h c _ (mem_uc main_v10_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Mha.Run

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.MhaSpec.lean ====
/-
  Multi-head self-attention on the extended reals, index by index.

  From activations x : [2, 2048, 1024], three projection matrices W : [1024, 1024] (row e holds the weights of output
  feature e) with biases b : [1024], and an output projection (Wo, bo):
  • a projection, split into 16 heads of 64 features, is  P(n, h, s, d) = Σ_k x(n, s, k) · W(64·h + d, k) + b(64·h + d);
  • the scaled score of query row s against key row t of one head is  (Σ_d Q(n, h, s, d) · K(n, h, t, d)) · (1/8);
  • a row of attention weights is the softmax of that row of scores, written the way both programs compute it: the
    exponential of each score's distance below the row's maximum, over the sum of those exponentials;
  • the head's output is  A(n, h, s, d) = Σ_t w(n, h, s, t) · V(n, h, t, d);
  • the heads are laid side by side again (feature k of a row belongs to head k / 64, lane k % 64) and projected:
    out(n, s, e) = Σ_k A(n, k / 64, s, k % 64) · Wo(e, k) + bo(e).
-/
import Idealize.ShloMosaic.PureOps.Ideal
import Idealize.ShloMosaic.Lib.ValueIdx
import proofs.«163356_j62843961475635_2_alg».proof.Proof.LibMaxReduce

noncomputable section

namespace Cert.Mha

open Idealize.ShloMosaic Idealize.ShloMosaic.ValueIdx Cert.LibMaxReduce

/-- Activations [2, 2048, 1024]. -/
abbrev Act := (⟨3, ![2, 2048, 1024]⟩ : Shape).Idx → EReal
/-- A square weight matrix [1024, 1024]. -/
abbrev Mat := (⟨2, ![1024, 1024]⟩ : Shape).Idx → EReal
/-- A bias [1024]. -/
abbrev Bias := (⟨1, ![1024]⟩ : Shape).Idx → EReal
/-- Per-head rows [2, 16, 2048, 64]. -/
abbrev Heads := (⟨4, ![2, 16, 2048, 64]⟩ : Shape).Idx → EReal
/-- Per-head square score tables [2, 16, 2048, 2048]. -/
abbrev Scores := (⟨4, ![2, 16, 2048, 2048]⟩ : Shape).Idx → EReal

/-- Feature 64·h + d of a row: lane d of head h. -/
def col (h : Fin 16) (d : Fin 64) : Fin 1024 := ⟨h.val * 64 + d.val, by have := h.isLt; have := d.isLt; omega⟩
/-- The head a feature belongs to. -/
def headOf (k : Fin 1024) : Fin 16 := ⟨k.val / 64, by have := k.isLt; omega⟩
/-- The lane of a feature inside its head. -/
def laneOf (k : Fin 1024) : Fin 64 := ⟨k.val % 64, by omega⟩

/-- One entry of a projection split into heads. -/
def projAt (x : Act) (W : Mat) (b : Bias) (n : Fin 2) (h : Fin 16) (s : Fin 2048) (d : Fin 64) : EReal :=
  (∑ k : Fin 1024, x (ix3 n s k) * W (ix2 (col h d) k)) + b (ix1 (col h d))

/-- A projection split into heads. -/
def proj (x : Act) (W : Mat) (b : Bias) : Heads := fun j => projAt x W b (j 0) (j 1) (j 2) (j 3)

theorem proj_ix4 (x : Act) (W : Mat) (b : Bias) (n : Fin 2) (h : Fin 16) (s : Fin 2048) (d : Fin 64) :
    proj x W b (ix4 n h s d) = projAt x W b n h s d := rfl

/-- The scale 1/√64 = 1/8. -/
def scale : EReal := ((1 / 8 : ℝ) : EReal)

/-- The value −∞ a running maximum starts from. -/
def negInf : EReal := Ideal.ofBits .f32 0xFF800000#32

/-- The scaled score of query row s against key row t. -/
def scoreAt (Q K : Heads) (n : Fin 2) (h : Fin 16) (s t : Fin 2048) : EReal :=
  (∑ d : Fin 64, Q (ix4 n h s d) * K (ix4 n h t d)) * scale

/-- The maximum of a row of scores. -/
def rowMax (Q K : Heads) (n : Fin 2) (h : Fin 16) (s : Fin 2048) : EReal :=
  foldMax negInf (fun t : Fin 2048 => scoreAt Q K n h s t)

/-- The exponential of a score's distance below its row's maximum. -/
def expAt (Q K : Heads) (n : Fin 2) (h : Fin 16) (s t : Fin 2048) : EReal :=
  Ideal.exp (scoreAt Q K n h s t - rowMax Q K n h s)

/-- One attention weight: the exponential over its row's sum of exponentials. -/
def weightAt (Q K : Heads) (n : Fin 2) (h : Fin 16) (s t : Fin 2048) : EReal :=
  Ideal.div (expAt Q K n h s t) (∑ u : Fin 2048, expAt Q K n h s u)

/-- The attention weights. -/
def weights (Q K : Heads) : Scores := fun j => weightAt Q K (j 0) (j 1) (j 2) (j 3)

theorem weights_ix4 (Q K : Heads) (n : Fin 2) (h : Fin 16) (s t : Fin 2048) :
    weights Q K (ix4 n h s t) = weightAt Q K n h s t := rfl

/-- One entry of a head's output: the weighted sum of the value rows. -/
def attnAt (Q K V : Heads) (n : Fin 2) (h : Fin 16) (s : Fin 2048) (d : Fin 64) : EReal :=
  ∑ t : Fin 2048, weightAt Q K n h s t * V (ix4 n h t d)

/-- The heads' outputs. -/
def attn (Q K V : Heads) : Heads := fun j => attnAt Q K V (j 0) (j 1) (j 2) (j 3)

theorem attn_ix4 (Q K V : Heads) (n : Fin 2) (h : Fin 16) (s : Fin 2048) (d : Fin 64) :
    attn Q K V (ix4 n h s d) = attnAt Q K V n h s d := rfl

/-- One entry of the output projection of the heads laid side by side. -/
def outAt (A : Heads) (Wo : Mat) (bo : Bias) (n : Fin 2) (s : Fin 2048) (e : Fin 1024) : EReal :=
  (∑ k : Fin 1024, A (ix4 n (headOf k) s (laneOf k)) * Wo (ix2 e k)) + bo (ix1 e)

/-- The output projection. -/
def outProj (A : Heads) (Wo : Mat) (bo : Bias) : Act := fun j => outAt A Wo bo (j 0) (j 1) (j 2)

theorem outProj_ix3 (A : Heads) (Wo : Mat) (bo : Bias) (n : Fin 2) (s : Fin 2048) (e : Fin 1024) :
    outProj A Wo bo (ix3 n s e) = outAt A Wo bo n s e := rfl

/-- The layer's first result: the projected attention output. -/
def result (x : Act) (Wq : Mat) (bq : Bias) (Wk : Mat) (bk : Bias) (Wv : Mat) (bv : Bias) (Wo : Mat) (bo : Bias) : Act :=
  outProj (attn (proj x Wq bq) (proj x Wk bk) (proj x Wv bv)) Wo bo

/-- The layer's second result: the attention weights. -/
def resultWeights (x : Act) (Wq : Mat) (bq : Bias) (Wk : Mat) (bk : Bias) : Scores :=
  weights (proj x Wq bq) (proj x Wk bk)

end Cert.Mha

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibRank4Layout.lean ====
/-
  Rank-4 layouts read at an index.

  A matrix [a, b] and the array [1, 1, a, b] hold the same numbers in the same row-major order, so a shape cast in
  either direction keeps every entry: entry (u, u', p, q) of the one is entry (p, q) of the other, whatever names
  `u u' : Fin 1` the caller writes for the coordinates of the two unit axes.
  The transpose that exchanges the two middle axes of an [a, b, c, d] array reads, at (p, r, q, s), the operand's
  entry (p, q, r, s): the layout change between "heads of rows" and "rows of heads".
-/
import Idealize.ShloMosaic.Lib.Pipeline.Value
import Idealize.ShloMosaic.Lib.ValueIdx

namespace Cert.LibRank4Layout

open Idealize.ShloMosaic Idealize.ShloMosaic.ValueIdx

variable {α : Type}

/-- A matrix [a, b] viewed as [1, 1, a, b]: entry (u, u', p, q) is entry (p, q). -/
theorem cast_ab_11ab {a b : ℕ} (x : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ x h (ix4 u u' p q) = x (ix2 p q) :=
  shapeCast_apply x h _ _ (by
    rw [Shape.rowMajor_val_four, Shape.rowMajor_val_two]
    show p.val * b + q.val = ((u.val * 1 + u'.val) * a + p.val) * b + q.val
    have hu : u.val = 0 := by have := u.isLt; omega
    have hu' : u'.val = 0 := by have := u'.isLt; omega
    simp only [hu, hu', Nat.zero_mul, Nat.zero_add])

/-- An array [1, 1, a, b] viewed as the matrix [a, b]: entry (p, q) is entry (u, u', p, q). -/
theorem cast_11ab_ab {a b : ℕ} (x : (⟨4, ![1, 1, a, b]⟩ : Shape).Idx → α)
    (h : (⟨4, ![1, 1, a, b]⟩ : Shape).ShapeCasts ⟨2, ![a, b]⟩) (u u' : Fin 1) (p : Fin a) (q : Fin b) :
    shapeCast ⟨2, ![a, b]⟩ x h (ix2 p q) = x (ix4 u u' p q) :=
  shapeCast_apply x h _ _ (by
    rw [Shape.rowMajor_val_four, Shape.rowMajor_val_two]
    show ((u.val * 1 + u'.val) * a + p.val) * b + q.val = p.val * b + q.val
    have hu : u.val = 0 := by have := u.isLt; omega
    have hu' : u'.val = 0 := by have := u'.isLt; omega
    simp only [hu, hu', Nat.zero_mul, Nat.zero_add])

/-- The two middle axes of an [a, b, c, d] array exchanged: entry (p, r, q, s) of the result is entry (p, q, r, s). -/
theorem transpose_0213_apply {a b c d : ℕ} (x : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (s : Fin d) :
    transpose ⟨4, ![a, c, b, d]⟩ [0, 2, 1, 3] x h (ix4 p r q s) = x (ix4 p q r s) :=
  transpose_apply _ x h _ _ fun e => match e with | ⟨0, _⟩ => rfl | ⟨1, _⟩ => rfl | ⟨2, _⟩ => rfl | ⟨3, _⟩ => rfl

end Cert.LibRank4Layout
-- ==== Proof.HostSteps.lean ====
/-
  The host operations around the three launches, read at an index.

  Before the first launch each weight matrix [1024, 1024] is regrouped as [16, 64, 1024] (row 64·h + d becomes row d
  of head h) and each bias [1024] as [16, 1, 64]; between the second and third launch the heads' outputs
  [2, 16, 2048, 64] are laid side by side again — transposed to [2, 2048, 16, 64] and flattened to rows [4096, 1024], row
  2048·n + s, feature 64·h + d — and the output bias becomes a row [1, 1024]; after the third launch the rows
  [4096, 1024] are regrouped as [2, 2048, 1024]. A change of float format is the identity on the extended reals.
-/
import proofs.«163356_j62843961475635_2_alg».proof.Proof.Gen.KernelIdeal.Frame
import proofs.«163356_j62843961475635_2_alg».proof.Proof.MhaSpec
import proofs.«163356_j62843961475635_2_alg».proof.Proof.LibRank3
import proofs.«163356_j62843961475635_2_alg».proof.Proof.LibRank4Layout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Mha.Host

open Cert.KernelIdeal Cert.KernelIdeal.Gen Cert.Mha
open Idealize.ShloMosaic Idealize.ShloMosaic.TcCoe Idealize.SL.Sem Idealize.ShloMosaic.ValueIdx
open Idealize.ShloMosaic.StableHlo

/-! ## The layout changes, at an index -/

section Layout
variable {α : Type}

/-- Weights [1024, 1024] regrouped by head: entry (h, d, k) is entry (64·h + d, k). -/
theorem weights_byHead (x : S1024x1024.Idx → α) (hc : S1024x1024.ShapeCasts S16x64x1024) (h : Fin 16) (d : Fin 64) (k : Fin 1024) :
    shapeCast S16x64x1024 x hc (ix3 h d k) = x (ix2 (col h d) k) :=
  shapeCast_apply x hc _ _ (by rw [Shape.rowMajor_val_two, Shape.rowMajor_val_three]; rfl)

/-- A bias [1024] regrouped by head: entry (h, 0, d) is entry 64·h + d. -/
theorem bias_byHead (b : S1024.Idx → α) (hc : S1024.ShapeCasts S16x1x64) (h : Fin 16) (u : Fin 1) (d : Fin 64) :
    shapeCast S16x1x64 b hc (ix3 h u d) = b (ix1 (col h d)) :=
  shapeCast_apply b hc _ _ (by
    rw [Shape.rowMajor_val_one, Shape.rowMajor_val_three]
    show h.val * 64 + d.val = (h.val * 1 + u.val) * 64 + d.val
    have := u.isLt; omega)

/-- Heads and rows exchanged: entry (n, s, h, d) of the transposed array is entry (n, h, s, d). -/
theorem heads_rows_swap (x : S2x16x2048x64.Idx → α) (ht : S2x16x2048x64.Transposes [0, 2, 1, 3] S2x2048x16x64)
    (n : Fin 2) (s : Fin 2048) (h : Fin 16) (d : Fin 64) :
    transpose S2x2048x16x64 [0, 2, 1, 3] x ht (ix4 n s h d) = x (ix4 n h s d) :=
  Cert.LibRank4Layout.transpose_0213_apply x ht n s h d

/-- Row 2048·n + s of the flattened rows. -/
def rowIdx (n : Fin 2) (s : Fin 2048) : Fin 4096 := Cert.LibRank3.flat 4096 (by norm_num) n s

/-- The heads laid side by side: entry (2048·n + s, k) of the flattened rows is entry (n, s, k / 64, k % 64). -/
theorem flatten_heads (y : S2x2048x16x64.Idx → α) (hc : S2x2048x16x64.ShapeCasts S4096x1024)
    (n : Fin 2) (s : Fin 2048) (k : Fin 1024) :
    shapeCast S4096x1024 y hc (ix2 (rowIdx n s) k) = y (ix4 n s (headOf k) (laneOf k)) :=
  shapeCast_apply y hc _ _ (by
    rw [Shape.rowMajor_val_four, Shape.rowMajor_val_two]
    show ((n.val * 2048 + s.val) * 16 + k.val / 64) * 64 + k.val % 64 = (n.val * 2048 + s.val) * 1024 + k.val
    omega)

/-- The rows regrouped by batch: entry (n, s, e) is entry (2048·n + s, e). -/
theorem rows_byBatch (z : S4096x1024.Idx → α) (hc : S4096x1024.ShapeCasts S2x2048x1024)
    (n : Fin 2) (s : Fin 2048) (e : Fin 1024) :
    shapeCast S2x2048x1024 z hc (ix3 n s e) = z (ix2 (rowIdx n s) e) :=
  Cert.LibRank3.cast_nc_abc 4096 (by norm_num) z hc n s e

end Layout

/-! ## The buffers' contents at each boundary -/

variable (m : (ℓ : Loc nD τ sig) → Buf (Elt Ideal) ℓ) (ρ : Dev nD → PrngReg)

/-- The activations reach the first launch as launched. -/
theorem entry0_x (c : Dev nD) : V1 m ρ c main_arg0 = m ((c : Thread nD τ).loc main_arg0) := by
  show StableHlo.after hostOps0 (W0 m ρ c) (Proc.devRef .tc main_arg0) = _
  dsimp only [hostOps0]
  after_results

/-- The q-projection's weights reach the first launch regrouped by head. -/
theorem entry0_wq (c : Dev nD) : (V1 m ρ c main_v1 : S16x64x1024.Idx → EReal)
    = fun j => (m ((c : Thread nD τ).loc main_arg1) : S1024x1024.Idx → EReal) (ix2 (col (j 0) (j 1)) (j 2)) := by
  show StableHlo.after hostOps0 (W0 m ρ c) (Proc.devRef .tc main_v1) = _
  dsimp only [hostOps0]
  after_results
  funext j
  obtain ⟨h, d, k, rfl⟩ : ∃ (h : Fin 16) (d : Fin 64) (k : Fin 1024), j = ix3 h d k := ⟨j 0, j 1, j 2, eq_ix3 j⟩
  exact weights_byHead _ _ h d k

/-- The k-projection's weights reach the first launch regrouped by head. -/
theorem entry0_wk (c : Dev nD) : (V1 m ρ c main_v3 : S16x64x1024.Idx → EReal)
    = fun j => (m ((c : Thread nD τ).loc main_arg3) : S1024x1024.Idx → EReal) (ix2 (col (j 0) (j 1)) (j 2)) := by
  show StableHlo.after hostOps0 (W0 m ρ c) (Proc.devRef .tc main_v3) = _
  dsimp only [hostOps0]
  after_results
  funext j
  obtain ⟨h, d, k, rfl⟩ : ∃ (h : Fin 16) (d : Fin 64) (k : Fin 1024), j = ix3 h d k := ⟨j 0, j 1, j 2, eq_ix3 j⟩
  exact weights_byHead _ _ h d k

/-- The v-projection's weights reach the first launch regrouped by head. -/
theorem entry0_wv (c : Dev nD) : (V1 m ρ c main_v5 : S16x64x1024.Idx → EReal)
    = fun j => (m ((c : Thread nD τ).loc main_arg5) : S1024x1024.Idx → EReal) (ix2 (col (j 0) (j 1)) (j 2)) := by
  show StableHlo.after hostOps0 (W0 m ρ c) (Proc.devRef .tc main_v5) = _
  dsimp only [hostOps0]
  after_results
  funext j
  obtain ⟨h, d, k, rfl⟩ : ∃ (h : Fin 16) (d : Fin 64) (k : Fin 1024), j = ix3 h d k := ⟨j 0, j 1, j 2, eq_ix3 j⟩
  exact weights_byHead _ _ h d k

/-- The q-projection's bias reaches the first launch regrouped by head. -/
theorem entry0_bq (c : Dev nD) : (V1 m ρ c main_v6 : S16x1x64.Idx → EReal)
    = fun j => (m ((c : Thread nD τ).loc main_arg2) : S1024.Idx → EReal) (ix1 (col (j 0) (j 2))) := by
  show StableHlo.after hostOps0 (W0 m ρ c) (Proc.devRef .tc main_v6) = _
  dsimp only [hostOps0]
  after_results
  funext j
  obtain ⟨h, u, d, rfl⟩ : ∃ (h : Fin 16) (u : Fin 1) (d : Fin 64), j = ix3 h u d := ⟨j 0, j 1, j 2, eq_ix3 j⟩
  exact bias_byHead _ _ h u d

/-- The k-projection's bias reaches the first launch regrouped by head. -/
theorem entry0_bk (c : Dev nD) : (V1 m ρ c main_v7 : S16x1x64.Idx → EReal)
    = fun j => (m ((c : Thread nD τ).loc main_arg4) : S1024.Idx → EReal) (ix1 (col (j 0) (j 2))) := by
  show StableHlo.after hostOps0 (W0 m ρ c) (Proc.devRef .tc main_v7) = _
  dsimp only [hostOps0]
  after_results
  funext j
  obtain ⟨h, u, d, rfl⟩ : ∃ (h : Fin 16) (u : Fin 1) (d : Fin 64), j = ix3 h u d := ⟨j 0, j 1, j 2, eq_ix3 j⟩
  exact bias_byHead _ _ h u d

/-- The v-projection's bias reaches the first launch regrouped by head. -/
theorem entry0_bv (c : Dev nD) : (V1 m ρ c main_v8 : S16x1x64.Idx → EReal)
    = fun j => (m ((c : Thread nD τ).loc main_arg6) : S1024.Idx → EReal) (ix1 (col (j 0) (j 2))) := by
  show StableHlo.after hostOps0 (W0 m ρ c) (Proc.devRef .tc main_v8) = _
  dsimp only [hostOps0]
  after_results
  funext j
  obtain ⟨h, u, d, rfl⟩ : ∃ (h : Fin 16) (u : Fin 1) (d : Fin 64), j = ix3 h u d := ⟨j 0, j 1, j 2, eq_ix3 j⟩
  exact bias_byHead _ _ h u d

/-- The output weights are untouched up to the second host stretch. -/
theorem keep_wo (c : Dev nD) : W3 m ρ c (Proc.devRef .tc main_arg7) = m ((c : Thread nD τ).loc main_arg7) := by
  rw [W3_of_ne m ρ c main_arg7 (by decide), W2_of_ne m ρ c main_arg7 (by decide)]
  show StableHlo.after hostOps0 (W0 m ρ c) (Proc.devRef .tc main_arg7) = _
  dsimp only [hostOps0]
  after_results

/-- The output bias likewise. -/
theorem keep_bo (c : Dev nD) : W3 m ρ c (Proc.devRef .tc main_arg8) = m ((c : Thread nD τ).loc main_arg8) := by
  rw [W3_of_ne m ρ c main_arg8 (by decide), W2_of_ne m ρ c main_arg8 (by decide)]
  show StableHlo.after hostOps0 (W0 m ρ c) (Proc.devRef .tc main_arg8) = _
  dsimp only [hostOps0]
  after_results

/-- The third launch's rows: entry (2048·n + s, k) is the second launch's output at (n, k / 64, s, k % 64). -/
theorem entry2_rows_apply (c : Dev nD) (n : Fin 2) (s : Fin 2048) (k : Fin 1024) :
    (V4 m ρ c main_v12 : S4096x1024.Idx → EReal) (ix2 (rowIdx n s) k)
      = (W3 m ρ c (Proc.devRef .tc main_v10_0) : S2x16x2048x64.Idx → EReal) (ix4 n (headOf k) s (laneOf k)) := by
  show StableHlo.after hostOps2 (W3 m ρ c) (Proc.devRef .tc main_v12) (ix2 (rowIdx n s) k) = _
  dsimp only [hostOps2]
  after_results
  exact (flatten_heads _ _ n s k).trans (heads_rows_swap _ _ n s (headOf k) (laneOf k))

/-- The third launch's weights are the output weights. -/
theorem entry2_wo (c : Dev nD) : (V4 m ρ c main_v13 : S1024x1024.Idx → EReal)
    = (m ((c : Thread nD τ).loc main_arg7) : S1024x1024.Idx → EReal) := by
  show StableHlo.after hostOps2 (W3 m ρ c) (Proc.devRef .tc main_v13) = _
  dsimp only [hostOps2]
  after_results
  rw [keep_wo m ρ c]
  rfl

/-- The third launch's bias row holds the output bias. -/
theorem entry2_bo_apply (c : Dev nD) (e : Fin 1024) : (V4 m ρ c main_v14 : S1x1024.Idx → EReal) (ix2 (0 : Fin 1) e)
    = (m ((c : Thread nD τ).loc main_arg8) : S1024.Idx → EReal) (ix1 e) := by
  show StableHlo.after hostOps2 (W3 m ρ c) (Proc.devRef .tc main_v14) (ix2 (0 : Fin 1) e) = _
  dsimp only [hostOps2]
  after_results
  rw [keep_bo m ρ c]
  exact shapeCast_a_1a_apply _ _ 0 e

/-- The first result is the third launch's rows regrouped by batch. -/
theorem exit_result_apply (c : Dev nD) (n : Fin 2) (s : Fin 2048) (e : Fin 1024) :
    (W6 m ρ c (Proc.devRef .tc main_v16) : S2x2048x1024.Idx → EReal) (ix3 n s e)
      = (W5 m ρ c (Proc.devRef .tc main_v15) : S4096x1024.Idx → EReal) (ix2 (rowIdx n s) e) := by
  show StableHlo.after hostOps3 (W5 m ρ c) (Proc.devRef .tc main_v16) (ix3 n s e) = _
  dsimp only [hostOps3]
  after_results
  exact rows_byBatch _ _ n s e

/-- The second result is what the second launch left: nothing after it writes that buffer. -/
theorem exit_weights (c : Dev nD) :
    W6 m ρ c (Proc.devRef .tc main_v10_1) = W3 m ρ c (Proc.devRef .tc main_v10_1) := by
  show StableHlo.after hostOps3 (W5 m ρ c) (Proc.devRef .tc main_v10_1) = _
  dsimp only [hostOps3]
  after_results
  rw [W5_of_ne m ρ c main_v10_1 (by decide)]
  show StableHlo.after hostOps2 (W3 m ρ c) (Proc.devRef .tc main_v10_1) = _
  dsimp only [hostOps2]
  after_results

end Cert.Mha.Host

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.Region0.lean ====
/-
  The fused query/key/value projection's launch.

  Grid point (n, h) reads batch n of the activations x : [2, 2048, 1024] and, for each of the three projections, head h's
  64 rows of the weights W : [16, 64, 1024] and head h's bias row b : [16, 1, 64]; it writes block (n, h) of each result
  [2, 16, 2048, 64]:  entry (n, h, s, d) = Σ_k x(n, s, k) · W(h, d, k) + b(h, 0, d).
  The 32 blocks tile each result, so each result array ends as that function of the arrays the launch finds.
-/
import proofs.«163356_j62843961475635_2_alg».proof.Proof.Gen.KernelIdeal.Frame
import proofs.«163356_j62843961475635_2_alg».proof.Proof.LibMatmulRhsT
import proofs.«163356_j62843961475635_2_alg».proof.Proof.LibRowBroadcast
import proofs.«163356_j62843961475635_2_alg».proof.Proof.LibRank4Layout
import Idealize.ShloMosaic.Lib.Pipeline.Value
import Idealize.ShloMosaic.Lib.ValueIdx
import Idealize.ShloMosaic.Lib.ValueLayout

set_option maxRecDepth 16384

noncomputable section

namespace Cert.Mha.Qkv

open Cert.KernelIdeal Cert.KernelIdeal.Gen
open Idealize.ShloMosaic Idealize.ShloMosaic.TcCoe Idealize.SL.Sem Idealize.ShloMosaic.ValueIdx
open Idealize.ShloMosaic.Pipeline (Dat)

/-- One entry of a per-head projection: activations row (n, s) against head h's weight row d, plus the bias. -/
def headProjAt (X : S2x2048x1024.Idx → EReal) (W : S16x64x1024.Idx → EReal) (b : S16x1x64.Idx → EReal)
    (n : Fin 2) (h : Fin 16) (s : Fin 2048) (d : Fin 64) : EReal :=
  (∑ k : Fin 1024, X (ix3 n s k) * W (ix3 h d k)) + b (ix3 h (0 : Fin 1) d)

/-- A per-head projection as an array [2, 16, 2048, 64]. -/
def headProj (X : S2x2048x1024.Idx → EReal) (W : S16x64x1024.Idx → EReal) (b : S16x1x64.Idx → EReal) :
    S2x16x2048x64.Idx → EReal := fun j => headProjAt X W b (j 0) (j 1) (j 2) (j 3)

/-- The same within one block: the loaded activations [1, 2048, 1024], weight rows [1, 64, 1024], bias row [1, 1, 64]. -/
def blockProjAt (x : S1x2048x1024.Idx → EReal) (w : S1x64x1024.Idx → EReal) (b : S1x1x64.Idx → EReal)
    (s : Fin 2048) (d : Fin 64) : EReal :=
  (∑ k : Fin 1024, x (ix3 (0 : Fin 1) s k) * w (ix3 (0 : Fin 1) d k)) + b (ix3 (0 : Fin 1) (0 : Fin 1) d)

/-- The printed dimension numbers are those of a product with the right operand transposed. -/
theorem dims_eq : dot_S2048x1024_S64x1024_S2048x64_1_1_0_0_n_n = DotDims.transposedRhs 2048 1024 64 := rfl

/-- The product-plus-bias every one of the three stores is made of, read at (s, d). -/
theorem core_apply (x : Vec Ideal S1x2048x1024 .f32) (w : Vec Ideal S1x64x1024 .bf16) (b : Vec Ideal S1x1x64 .f32)
    (h1 : S1x64x1024.ShapeCasts S64x1024) (h2 : S1x1x64.ShapeCasts S1x64) (h3 : S1x64.Broadcasts S2048x64)
    (s : Fin 2048) (d : Fin 64) :
    addf (matmul dot_S2048x1024_S64x1024_S2048x64_1_1_0_0_n_n none (k0_pay3 x) (shapeCast S64x1024 w h1 : FVec Ideal S64x1024 .bf16)
        (constant S2048x64 .f32 0x00000000#32)) (broadcastTo S2048x64 (shapeCast S1x64 b h2 : FVec Ideal S1x64 .f32) h3) (ix2 s d)
      = blockProjAt x w b s d := by
  rw [dims_eq]
  unfold blockProjAt
  refine congrArg₂ (· + ·) ?_ ?_
  · refine (Cert.LibMatmulRhsT.matmul_transposedRhs_zero_apply 2048 1024 64 none (k0_pay3 x) (shapeCast S64x1024 w h1 : FVec Ideal S64x1024 .bf16) s d).trans ?_
    refine Finset.sum_congr rfl fun k _ => congrArg₂ (· * ·) ?_ ?_
    · unfold k0_pay3
      exact shapeCast_1ab_ab_apply x _ s k
    · exact shapeCast_1ab_ab_apply w h1 d k
  · refine (Cert.LibRowBroadcast.broadcastTo_1b_ab_apply (shapeCast S1x64 b h2 : FVec Ideal S1x64 .f32) h3 s d 0).trans ?_
    exact shapeCast_1ab_ab_apply b h2 (0 : Fin 1) d

/-- The query store, read at (s, d). -/
theorem payQ_apply (x : Vec Ideal S1x2048x1024 .f32) (w : Vec Ideal S1x64x1024 .bf16) (b : Vec Ideal S1x1x64 .f32)
    (s : Fin 2048) (d : Fin 64) :
    k0_pay5 x w b (ix4 (0 : Fin 1) (0 : Fin 1) s d) = blockProjAt x w b s d := by
  unfold k0_pay5
  refine (Cert.LibRank4Layout.cast_ab_11ab _ _ 0 0 s d).trans ?_
  exact core_apply x w b _ _ _ s d

/-- The key store, read at (s, d). -/
theorem payK_apply (x : Vec Ideal S1x2048x1024 .f32) (w : Vec Ideal S1x64x1024 .bf16) (b : Vec Ideal S1x1x64 .f32)
    (s : Fin 2048) (d : Fin 64) :
    k0_pay1 (k0_pay6 x w b) (ix4 (0 : Fin 1) (0 : Fin 1) s d) = blockProjAt x w b s d := by
  unfold k0_pay1 k0_pay6
  refine (Cert.LibRank4Layout.cast_ab_11ab _ _ 0 0 s d).trans ?_
  exact core_apply x w b _ _ _ s d

/-- The value store, read at (s, d). -/
theorem payV_apply (x : Vec Ideal S1x2048x1024 .f32) (w : Vec Ideal S1x64x1024 .bf16) (b : Vec Ideal S1x1x64 .f32)
    (s : Fin 2048) (d : Fin 64) :
    k0_pay2 (k0_pay4 x w b) (ix4 (0 : Fin 1) (0 : Fin 1) s d) = blockProjAt x w b s d := by
  unfold k0_pay2 k0_pay4
  refine (Cert.LibRank4Layout.cast_ab_11ab _ _ 0 0 s d).trans ?_
  exact core_apply x w b _ _ _ s d

/-! ## From the (n, h) blocks to the arrays -/

variable (V : (c : Dev nD) → (b : Ref sig .tc) → Buf (Elt Ideal) ((c : Thread nD τ).loc b))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The batch a grid point works on. -/
def batchOf (t : Fin cfg0.N) : Fin 2 := ⟨t.val / 16, by have := t.isLt; have hN : cfg0.N = 32 := N_0; omega⟩
/-- The head a grid point works on. -/
def headAt (t : Fin cfg0.N) : Fin 16 := ⟨t.val % 16, by omega⟩

/-- The activations' block index follows the batch. -/
theorem idx_x : ∀ t : Fin cfg0.N, win0_0.index t (0 : Fin 3) = t.val / 16 ∧ win0_0.index t (1 : Fin 3) = 0 ∧ win0_0.index t (2 : Fin 3) = 0 :=
  (by decide +kernel : ∀ t : Fin grid0.N, _)
/-- Window 1's block index follows the head. -/
theorem idx_1 : ∀ t : Fin cfg0.N, win0_1.index t (0 : Fin 3) = t.val % 16 ∧ win0_1.index t (1 : Fin 3) = 0 ∧ win0_1.index t (2 : Fin 3) = 0 :=
  (by decide +kernel : ∀ t : Fin grid0.N, _)
/-- Window 3's block index follows the head. -/
theorem idx_3 : ∀ t : Fin cfg0.N, win0_3.index t (0 : Fin 3) = t.val % 16 ∧ win0_3.index t (1 : Fin 3) = 0 ∧ win0_3.index t (2 : Fin 3) = 0 :=
  (by decide +kernel : ∀ t : Fin grid0.N, _)
/-- Window 5's block index follows the head. -/
theorem idx_5 : ∀ t : Fin cfg0.N, win0_5.index t (0 : Fin 3) = t.val % 16 ∧ win0_5.index t (1 : Fin 3) = 0 ∧ win0_5.index t (2 : Fin 3) = 0 :=
  (by decide +kernel : ∀ t : Fin grid0.N, _)
/-- Window 2's block index follows the head. -/
theorem idx_2 : ∀ t : Fin cfg0.N, win0_2.index t (0 : Fin 3) = t.val % 16 ∧ win0_2.index t (1 : Fin 3) = 0 ∧ win0_2.index t (2 : Fin 3) = 0 :=
  (by decide +kernel : ∀ t : Fin grid0.N, _)
/-- Window 4's block index follows the head. -/
theorem idx_4 : ∀ t : Fin cfg0.N, win0_4.index t (0 : Fin 3) = t.val % 16 ∧ win0_4.index t (1 : Fin 3) = 0 ∧ win0_4.index t (2 : Fin 3) = 0 :=
  (by decide +kernel : ∀ t : Fin grid0.N, _)
/-- Window 6's block index follows the head. -/
theorem idx_6 : ∀ t : Fin cfg0.N, win0_6.index t (0 : Fin 3) = t.val % 16 ∧ win0_6.index t (1 : Fin 3) = 0 ∧ win0_6.index t (2 : Fin 3) = 0 :=
  (by decide +kernel : ∀ t : Fin grid0.N, _)
/-- Result window 7's block index is (batch, head, 0, 0). -/
theorem idx_7 : ∀ t : Fin cfg0.N, win0_7.index t (0 : Fin 4) = t.val / 16 ∧ win0_7.index t (1 : Fin 4) = t.val % 16
    ∧ win0_7.index t (2 : Fin 4) = 0 ∧ win0_7.index t (3 : Fin 4) = 0 :=
  (by decide +kernel : ∀ t : Fin grid0.N, _)
/-- Result window 8's block index is (batch, head, 0, 0). -/
theorem idx_8 : ∀ t : Fin cfg0.N, win0_8.index t (0 : Fin 4) = t.val / 16 ∧ win0_8.index t (1 : Fin 4) = t.val % 16
    ∧ win0_8.index t (2 : Fin 4) = 0 ∧ win0_8.index t (3 : Fin 4) = 0 :=
  (by decide +kernel : ∀ t : Fin grid0.N, _)
/-- Result window 9's block index is (batch, head, 0, 0). -/
theorem idx_9 : ∀ t : Fin cfg0.N, win0_9.index t (0 : Fin 4) = t.val / 16 ∧ win0_9.index t (1 : Fin 4) = t.val % 16
    ∧ win0_9.index t (2 : Fin 4) = 0 ∧ win0_9.index t (3 : Fin 4) = 0 :=
  (by decide +kernel : ∀ t : Fin grid0.N, _)

/-- Entry (0, s, k) of the activations' block at point t is entry (batch, s, k) of the array. -/
theorem xBlock_apply (c : Dev nD) (t : Fin cfg0.N) (s : Fin 2048) (k : Fin 1024) :
    iblk0 V c 0 t (ix3 (0 : Fin 1) s k) = (V c main_arg0 : S2x2048x1024.Idx → EReal) (ix3 (batchOf t) s k) := by
  obtain ⟨e0, e1, e2⟩ := idx_x t
  show V c main_arg0 (((cfg0.win 0).blk t).view.emb (ix3 (0 : Fin 1) s k)) = _
  refine congrArg _ (funext fun a => Fin.ext ?_)
  match a with
  | ⟨0, _⟩ => show win0_0.index t (0 : Fin 3) * 1 + 1 * 0 = t.val / 16; rw [e0]; omega
  | ⟨1, _⟩ => show win0_0.index t (1 : Fin 3) * 2048 + 1 * s.val = s.val; rw [e1]; omega
  | ⟨2, _⟩ => show win0_0.index t (2 : Fin 3) * 1024 + 1 * k.val = k.val; rw [e2]; omega

/-- Entry (0, d, k) of window 1's block at point t is entry (head, d, k) of its array. -/
theorem block1_apply (c : Dev nD) (t : Fin cfg0.N) (d : Fin 64) (k : Fin 1024) :
    iblk0 V c 1 t (ix3 (0 : Fin 1) d k) = (V c main_v1 : S16x64x1024.Idx → EReal) (ix3 (headAt t) d k) := by
  obtain ⟨e0, e1, e2⟩ := idx_1 t
  show V c main_v1 (((cfg0.win 1).blk t).view.emb (ix3 (0 : Fin 1) d k)) = _
  refine congrArg _ (funext fun a => Fin.ext ?_)
  match a with
  | ⟨0, _⟩ => show win0_1.index t (0 : Fin 3) * 1 + 1 * 0 = t.val % 16; rw [e0]; omega
  | ⟨1, _⟩ => show win0_1.index t (1 : Fin 3) * 64 + 1 * d.val = d.val; rw [e1]; omega
  | ⟨2, _⟩ => show win0_1.index t (2 : Fin 3) * 1024 + 1 * k.val = k.val; rw [e2]; omega

/-- Entry (0, d, k) of window 3's block at point t is entry (head, d, k) of its array. -/
theorem block3_apply (c : Dev nD) (t : Fin cfg0.N) (d : Fin 64) (k : Fin 1024) :
    iblk0 V c 3 t (ix3 (0 : Fin 1) d k) = (V c main_v3 : S16x64x1024.Idx → EReal) (ix3 (headAt t) d k) := by
  obtain ⟨e0, e1, e2⟩ := idx_3 t
  show V c main_v3 (((cfg0.win 3).blk t).view.emb (ix3 (0 : Fin 1) d k)) = _
  refine congrArg _ (funext fun a => Fin.ext ?_)
  match a with
  | ⟨0, _⟩ => show win0_3.index t (0 : Fin 3) * 1 + 1 * 0 = t.val % 16; rw [e0]; omega
  | ⟨1, _⟩ => show win0_3.index t (1 : Fin 3) * 64 + 1 * d.val = d.val; rw [e1]; omega
  | ⟨2, _⟩ => show win0_3.index t (2 : Fin 3) * 1024 + 1 * k.val = k.val; rw [e2]; omega

/-- Entry (0, d, k) of window 5's block at point t is entry (head, d, k) of its array. -/
theorem block5_apply (c : Dev nD) (t : Fin cfg0.N) (d : Fin 64) (k : Fin 1024) :
    iblk0 V c 5 t (ix3 (0 : Fin 1) d k) = (V c main_v5 : S16x64x1024.Idx → EReal) (ix3 (headAt t) d k) := by
  obtain ⟨e0, e1, e2⟩ := idx_5 t
  show V c main_v5 (((cfg0.win 5).blk t).view.emb (ix3 (0 : Fin 1) d k)) = _
  refine congrArg _ (funext fun a => Fin.ext ?_)
  match a with
  | ⟨0, _⟩ => show win0_5.index t (0 : Fin 3) * 1 + 1 * 0 = t.val % 16; rw [e0]; omega
  | ⟨1, _⟩ => show win0_5.index t (1 : Fin 3) * 64 + 1 * d.val = d.val; rw [e1]; omega
  | ⟨2, _⟩ => show win0_5.index t (2 : Fin 3) * 1024 + 1 * k.val = k.val; rw [e2]; omega

/-- Entry (0, 0, d) of window 2's block at point t is entry (head, 0, d) of its array. -/
theorem block2_apply (c : Dev nD) (t : Fin cfg0.N) (d : Fin 64) :
    iblk0 V c 2 t (ix3 (0 : Fin 1) (0 : Fin 1) d) = (V c main_v6 : S16x1x64.Idx → EReal) (ix3 (headAt t) (0 : Fin 1) d) := by
  obtain ⟨e0, e1, e2⟩ := idx_2 t
  show V c main_v6 (((cfg0.win 2).blk t).view.emb (ix3 (0 : Fin 1) (0 : Fin 1) d)) = _
  refine congrArg _ (funext fun a => Fin.ext ?_)
  match a with
  | ⟨0, _⟩ => show win0_2.index t (0 : Fin 3) * 1 + 1 * 0 = t.val % 16; rw [e0]; omega
  | ⟨1, _⟩ => show win0_2.index t (1 : Fin 3) * 1 + 1 * 0 = 0; rw [e1]
  | ⟨2, _⟩ => show win0_2.index t (2 : Fin 3) * 64 + 1 * d.val = d.val; rw [e2]; omega

/-- Entry (0, 0, d) of window 4's block at point t is entry (head, 0, d) of its array. -/
theorem block4_apply (c : Dev nD) (t : Fin cfg0.N) (d : Fin 64) :
    iblk0 V c 4 t (ix3 (0 : Fin 1) (0 : Fin 1) d) = (V c main_v7 : S16x1x64.Idx → EReal) (ix3 (headAt t) (0 : Fin 1) d) := by
  obtain ⟨e0, e1, e2⟩ := idx_4 t
  show V c main_v7 (((cfg0.win 4).blk t).view.emb (ix3 (0 : Fin 1) (0 : Fin 1) d)) = _
  refine congrArg _ (funext fun a => Fin.ext ?_)
  match a with
  | ⟨0, _⟩ => show win0_4.index t (0 : Fin 3) * 1 + 1 * 0 = t.val % 16; rw [e0]; omega
  | ⟨1, _⟩ => show win0_4.index t (1 : Fin 3) * 1 + 1 * 0 = 0; rw [e1]
  | ⟨2, _⟩ => show win0_4.index t (2 : Fin 3) * 64 + 1 * d.val = d.val; rw [e2]; omega

/-- Entry (0, 0, d) of window 6's block at point t is entry (head, 0, d) of its array. -/
theorem block6_apply (c : Dev nD) (t : Fin cfg0.N) (d : Fin 64) :
    iblk0 V c 6 t (ix3 (0 : Fin 1) (0 : Fin 1) d) = (V c main_v8 : S16x1x64.Idx → EReal) (ix3 (headAt t) (0 : Fin 1) d) := by
  obtain ⟨e0, e1, e2⟩ := idx_6 t
  show V c main_v8 (((cfg0.win 6).blk t).view.emb (ix3 (0 : Fin 1) (0 : Fin 1) d)) = _
  refine congrArg _ (funext fun a => Fin.ext ?_)
  match a with
  | ⟨0, _⟩ => show win0_6.index t (0 : Fin 3) * 1 + 1 * 0 = t.val % 16; rw [e0]; omega
  | ⟨1, _⟩ => show win0_6.index t (1 : Fin 3) * 1 + 1 * 0 = 0; rw [e1]
  | ⟨2, _⟩ => show win0_6.index t (2 : Fin 3) * 64 + 1 * d.val = d.val; rw [e2]; omega

/-! ### Result window 7 -/

/-- Entry (0, 0, s, d) of result window 7's block at point t sits at (batch, head, s, d) of its array. -/
theorem outBlock7_emb (t : Fin cfg0.N) (s : Fin 2048) (d : Fin 64) :
    ((cfg0.win 7).blk t).view.emb (ix4 (0 : Fin 1) (0 : Fin 1) s d) = ix4 (batchOf t) (headAt t) s d := by
  obtain ⟨e0, e1, e2, e3⟩ := idx_7 t
  refine funext fun a => Fin.ext ?_
  match a with
  | ⟨0, _⟩ => show win0_7.index t (0 : Fin 4) * 1 + 1 * 0 = t.val / 16; rw [e0]; omega
  | ⟨1, _⟩ => show win0_7.index t (1 : Fin 4) * 1 + 1 * 0 = t.val % 16; rw [e1]; omega
  | ⟨2, _⟩ => show win0_7.index t (2 : Fin 4) * 2048 + 1 * s.val = s.val; rw [e2]; omega
  | ⟨3, _⟩ => show win0_7.index t (3 : Fin 4) * 64 + 1 * d.val = d.val; rw [e3]; omega

/-- What point t writes back through window 7 is block t of the per-head projection of the arrays the launch finds. -/
theorem flushedQ (c : Dev nD) (t : Fin cfg0.N) :
    (dat0 V c).flushed 7 t = ((cfg0.win 7).blk t).view.read (Elt Ideal)
      (headProj (V c main_arg0) (V c main_v1) (V c main_v6)) := by
  show (cfg0.win 7).cut (grid0.coords t) ((dat0 V c).after 7 t) = _
  rw [after0_7]
  unfold out0_7
  rw [View.canon_unit_zero zero4]
  simp only [View.ld_unit_zero (S := S1x2048x1024) zero3, View.ld_unit_zero (S := S1x64x1024) zero3,
    View.ld_unit_zero (S := S1x1x64) zero3]
  funext j
  obtain ⟨u, u', s, d, rfl⟩ : ∃ (u u' : Fin 1) (s : Fin 2048) (d : Fin 64), j = ix4 u u' s d :=
    ⟨j 0, j 1, j 2, j 3, eq_ix4 j⟩
  obtain rfl : u = 0 := Subsingleton.elim _ _
  obtain rfl : u' = 0 := Subsingleton.elim _ _
  show k0_pay5 (iblk0 V c 0 t) (iblk0 V c 1 t) (iblk0 V c 2 t) (ix4 (0 : Fin 1) (0 : Fin 1) s d)
    = headProj (V c main_arg0) (V c main_v1) (V c main_v6) (((cfg0.win 7).blk t).view.emb (ix4 (0 : Fin 1) (0 : Fin 1) s d))
  rw [outBlock7_emb t s d]
  refine (payQ_apply (iblk0 V c 0 t) (iblk0 V c 1 t) (iblk0 V c 2 t) s d).trans ?_
  show _ = headProjAt (V c main_arg0) (V c main_v1) (V c main_v6) (batchOf t) (headAt t) s d
  unfold blockProjAt headProjAt
  rw [block2_apply V c t d]
  refine congrArg (· + _) (Finset.sum_congr rfl fun k _ => ?_)
  rw [xBlock_apply V c t s k, block1_apply V c t d k]

/-- An index of result 7's array is in point t's block iff each coordinate is in the block's range. -/
theorem mem_blk7 (t : Fin cfg0.N) (i : S2x16x2048x64.Idx) :
    i ∈ ((cfg0.win 7).blk t).view.set ↔ ∀ a : Fin 4, win0_7.index t a * S1x1x2048x64.size a ≤ (i a).val
      ∧ (i a).val < win0_7.index t a * S1x1x2048x64.size a + S1x1x2048x64.size a := by
  show i ∈ ((View.whole main_v9_0).slice (win0_7.rect t)).set ↔ _
  rw [View.set_slice_whole, Rect.mem_set_unit]
  exact Iff.rfl

/-- The 32 blocks cover result 7's array: entry (n, h, ·, ·) is in the block of point 16·n + h. -/
theorem cover7 (i : S2x16x2048x64.Idx) :
    ∃ t : Fin cfg0.N, (cfg0.win 7).flush t = true ∧ i ∈ ((cfg0.win 7).blk t).view.set := by
  have hN : cfg0.N = 32 := N_0
  have hi0 : (i 0).val < 2 := (i 0).isLt
  have hi1 : (i 1).val < 16 := (i 1).isLt
  have hi2 : (i 2).val < 2048 := (i 2).isLt
  have hi3 : (i 3).val < 64 := (i 3).isLt
  let t : Fin cfg0.N := ⟨(i 0).val * 16 + (i 1).val, by omega⟩
  have ht : t.val = (i 0).val * 16 + (i 1).val := rfl
  obtain ⟨e0, e1, e2, e3⟩ := idx_7 t
  refine ⟨t, flush0_7 t, ?_⟩
  rw [mem_blk7]
  intro a
  match a with
  | ⟨0, _⟩ =>
    show win0_7.index t (0 : Fin 4) * 1 ≤ (i 0).val ∧ (i 0).val < win0_7.index t (0 : Fin 4) * 1 + 1
    rw [e0, ht]; omega
  | ⟨1, _⟩ =>
    show win0_7.index t (1 : Fin 4) * 1 ≤ (i 1).val ∧ (i 1).val < win0_7.index t (1 : Fin 4) * 1 + 1
    rw [e1, ht]; omega
  | ⟨2, _⟩ =>
    show win0_7.index t (2 : Fin 4) * 2048 ≤ (i 2).val ∧ (i 2).val < win0_7.index t (2 : Fin 4) * 2048 + 2048
    rw [e2]; omega
  | ⟨3, _⟩ =>
    show win0_7.index t (3 : Fin 4) * 64 ≤ (i 3).val ∧ (i 3).val < win0_7.index t (3 : Fin 4) * 64 + 64
    rw [e3]; omega

/-- Result 7's array after the launch: the per-head projection of the arrays the launch finds. -/
theorem finalQ (c : Dev nD) :
    (dat0 V c).arrAt 7 cfg0.N = headProj (V c main_arg0) (V c main_v1) (V c main_v6) :=
  (dat0 V c).arrAt_eq_of_cover 7 _ (fun t _ => flushedQ V c t) cover7

/-! ### Result window 8 -/

/-- Entry (0, 0, s, d) of result window 8's block at point t sits at (batch, head, s, d) of its array. -/
theorem outBlock8_emb (t : Fin cfg0.N) (s : Fin 2048) (d : Fin 64) :
    ((cfg0.win 8).blk t).view.emb (ix4 (0 : Fin 1) (0 : Fin 1) s d) = ix4 (batchOf t) (headAt t) s d := by
  obtain ⟨e0, e1, e2, e3⟩ := idx_8 t
  refine funext fun a => Fin.ext ?_
  match a with
  | ⟨0, _⟩ => show win0_8.index t (0 : Fin 4) * 1 + 1 * 0 = t.val / 16; rw [e0]; omega
  | ⟨1, _⟩ => show win0_8.index t (1 : Fin 4) * 1 + 1 * 0 = t.val % 16; rw [e1]; omega
  | ⟨2, _⟩ => show win0_8.index t (2 : Fin 4) * 2048 + 1 * s.val = s.val; rw [e2]; omega
  | ⟨3, _⟩ => show win0_8.index t (3 : Fin 4) * 64 + 1 * d.val = d.val; rw [e3]; omega

/-- What point t writes back through window 8 is block t of the per-head projection of the arrays the launch finds. -/
theorem flushedK (c : Dev nD) (t : Fin cfg0.N) :
    (dat0 V c).flushed 8 t = ((cfg0.win 8).blk t).view.read (Elt Ideal)
      (headProj (V c main_arg0) (V c main_v3) (V c main_v7)) := by
  show (cfg0.win 8).cut (grid0.coords t) ((dat0 V c).after 8 t) = _
  rw [after0_8]
  unfold out0_8
  rw [View.canon_unit_zero zero4]
  simp only [View.ld_unit_zero (S := S1x2048x1024) zero3, View.ld_unit_zero (S := S1x64x1024) zero3,
    View.ld_unit_zero (S := S1x1x64) zero3]
  funext j
  obtain ⟨u, u', s, d, rfl⟩ : ∃ (u u' : Fin 1) (s : Fin 2048) (d : Fin 64), j = ix4 u u' s d :=
    ⟨j 0, j 1, j 2, j 3, eq_ix4 j⟩
  obtain rfl : u = 0 := Subsingleton.elim _ _
  obtain rfl : u' = 0 := Subsingleton.elim _ _
  show k0_pay1 (k0_pay6 (iblk0 V c 0 t) (iblk0 V c 3 t) (iblk0 V c 4 t)) (ix4 (0 : Fin 1) (0 : Fin 1) s d)
    = headProj (V c main_arg0) (V c main_v3) (V c main_v7) (((cfg0.win 8).blk t).view.emb (ix4 (0 : Fin 1) (0 : Fin 1) s d))
  rw [outBlock8_emb t s d]
  refine (payK_apply (iblk0 V c 0 t) (iblk0 V c 3 t) (iblk0 V c 4 t) s d).trans ?_
  show _ = headProjAt (V c main_arg0) (V c main_v3) (V c main_v7) (batchOf t) (headAt t) s d
  unfold blockProjAt headProjAt
  rw [block4_apply V c t d]
  refine congrArg (· + _) (Finset.sum_congr rfl fun k _ => ?_)
  rw [xBlock_apply V c t s k, block3_apply V c t d k]

/-- An index of result 8's array is in point t's block iff each coordinate is in the block's range. -/
theorem mem_blk8 (t : Fin cfg0.N) (i : S2x16x2048x64.Idx) :
    i ∈ ((cfg0.win 8).blk t).view.set ↔ ∀ a : Fin 4, win0_8.index t a * S1x1x2048x64.size a ≤ (i a).val
      ∧ (i a).val < win0_8.index t a * S1x1x2048x64.size a + S1x1x2048x64.size a := by
  show i ∈ ((View.whole main_v9_1).slice (win0_8.rect t)).set ↔ _
  rw [View.set_slice_whole, Rect.mem_set_unit]
  exact Iff.rfl

/-- The 32 blocks cover result 8's array: entry (n, h, ·, ·) is in the block of point 16·n + h. -/
theorem cover8 (i : S2x16x2048x64.Idx) :
    ∃ t : Fin cfg0.N, (cfg0.win 8).flush t = true ∧ i ∈ ((cfg0.win 8).blk t).view.set := by
  have hN : cfg0.N = 32 := N_0
  have hi0 : (i 0).val < 2 := (i 0).isLt
  have hi1 : (i 1).val < 16 := (i 1).isLt
  have hi2 : (i 2).val < 2048 := (i 2).isLt
  have hi3 : (i 3).val < 64 := (i 3).isLt
  let t : Fin cfg0.N := ⟨(i 0).val * 16 + (i 1).val, by omega⟩
  have ht : t.val = (i 0).val * 16 + (i 1).val := rfl
  obtain ⟨e0, e1, e2, e3⟩ := idx_8 t
  refine ⟨t, flush0_8 t, ?_⟩
  rw [mem_blk8]
  intro a
  match a with
  | ⟨0, _⟩ =>
    show win0_8.index t (0 : Fin 4) * 1 ≤ (i 0).val ∧ (i 0).val < win0_8.index t (0 : Fin 4) * 1 + 1
    rw [e0, ht]; omega
  | ⟨1, _⟩ =>
    show win0_8.index t (1 : Fin 4) * 1 ≤ (i 1).val ∧ (i 1).val < win0_8.index t (1 : Fin 4) * 1 + 1
    rw [e1, ht]; omega
  | ⟨2, _⟩ =>
    show win0_8.index t (2 : Fin 4) * 2048 ≤ (i 2).val ∧ (i 2).val < win0_8.index t (2 : Fin 4) * 2048 + 2048
    rw [e2]; omega
  | ⟨3, _⟩ =>
    show win0_8.index t (3 : Fin 4) * 64 ≤ (i 3).val ∧ (i 3).val < win0_8.index t (3 : Fin 4) * 64 + 64
    rw [e3]; omega

/-- Result 8's array after the launch: the per-head projection of the arrays the launch finds. -/
theorem finalK (c : Dev nD) :
    (dat0 V c).arrAt 8 cfg0.N = headProj (V c main_arg0) (V c main_v3) (V c main_v7) :=
  (dat0 V c).arrAt_eq_of_cover 8 _ (fun t _ => flushedK V c t) cover8

/-! ### Result window 9 -/

/-- Entry (0, 0, s, d) of result window 9's block at point t sits at (batch, head, s, d) of its array. -/
theorem outBlock9_emb (t : Fin cfg0.N) (s : Fin 2048) (d : Fin 64) :
    ((cfg0.win 9).blk t).view.emb (ix4 (0 : Fin 1) (0 : Fin 1) s d) = ix4 (batchOf t) (headAt t) s d := by
  obtain ⟨e0, e1, e2, e3⟩ := idx_9 t
  refine funext fun a => Fin.ext ?_
  match a with
  | ⟨0, _⟩ => show win0_9.index t (0 : Fin 4) * 1 + 1 * 0 = t.val / 16; rw [e0]; omega
  | ⟨1, _⟩ => show win0_9.index t (1 : Fin 4) * 1 + 1 * 0 = t.val % 16; rw [e1]; omega
  | ⟨2, _⟩ => show win0_9.index t (2 : Fin 4) * 2048 + 1 * s.val = s.val; rw [e2]; omega
  | ⟨3, _⟩ => show win0_9.index t (3 : Fin 4) * 64 + 1 * d.val = d.val; rw [e3]; omega

/-- What point t writes back through window 9 is block t of the per-head projection of the arrays the launch finds. -/
theorem flushedV (c : Dev nD) (t : Fin cfg0.N) :
    (dat0 V c).flushed 9 t = ((cfg0.win 9).blk t).view.read (Elt Ideal)
      (headProj (V c main_arg0) (V c main_v5) (V c main_v8)) := by
  show (cfg0.win 9).cut (grid0.coords t) ((dat0 V c).after 9 t) = _
  rw [after0_9]
  unfold out0_9
  rw [View.canon_unit_zero zero4]
  simp only [View.ld_unit_zero (S := S1x2048x1024) zero3, View.ld_unit_zero (S := S1x64x1024) zero3,
    View.ld_unit_zero (S := S1x1x64) zero3]
  funext j
  obtain ⟨u, u', s, d, rfl⟩ : ∃ (u u' : Fin 1) (s : Fin 2048) (d : Fin 64), j = ix4 u u' s d :=
    ⟨j 0, j 1, j 2, j 3, eq_ix4 j⟩
  obtain rfl : u = 0 := Subsingleton.elim _ _
  obtain rfl : u' = 0 := Subsingleton.elim _ _
  show k0_pay2 (k0_pay4 (iblk0 V c 0 t) (iblk0 V c 5 t) (iblk0 V c 6 t)) (ix4 (0 : Fin 1) (0 : Fin 1) s d)
    = headProj (V c main_arg0) (V c main_v5) (V c main_v8) (((cfg0.win 9).blk t).view.emb (ix4 (0 : Fin 1) (0 : Fin 1) s d))
  rw [outBlock9_emb t s d]
  refine (payV_apply (iblk0 V c 0 t) (iblk0 V c 5 t) (iblk0 V c 6 t) s d).trans ?_
  show _ = headProjAt (V c main_arg0) (V c main_v5) (V c main_v8) (batchOf t) (headAt t) s d
  unfold blockProjAt headProjAt
  rw [block6_apply V c t d]
  refine congrArg (· + _) (Finset.sum_congr rfl fun k _ => ?_)
  rw [xBlock_apply V c t s k, block5_apply V c t d k]

/-- An index of result 9's array is in point t's block iff each coordinate is in the block's range. -/
theorem mem_blk9 (t : Fin cfg0.N) (i : S2x16x2048x64.Idx) :
    i ∈ ((cfg0.win 9).blk t).view.set ↔ ∀ a : Fin 4, win0_9.index t a * S1x1x2048x64.size a ≤ (i a).val
      ∧ (i a).val < win0_9.index t a * S1x1x2048x64.size a + S1x1x2048x64.size a := by
  show i ∈ ((View.whole main_v9_2).slice (win0_9.rect t)).set ↔ _
  rw [View.set_slice_whole, Rect.mem_set_unit]
  exact Iff.rfl

/-- The 32 blocks cover result 9's array: entry (n, h, ·, ·) is in the block of point 16·n + h. -/
theorem cover9 (i : S2x16x2048x64.Idx) :
    ∃ t : Fin cfg0.N, (cfg0.win 9).flush t = true ∧ i ∈ ((cfg0.win 9).blk t).view.set := by
  have hN : cfg0.N = 32 := N_0
  have hi0 : (i 0).val < 2 := (i 0).isLt
  have hi1 : (i 1).val < 16 := (i 1).isLt
  have hi2 : (i 2).val < 2048 := (i 2).isLt
  have hi3 : (i 3).val < 64 := (i 3).isLt
  let t : Fin cfg0.N := ⟨(i 0).val * 16 + (i 1).val, by omega⟩
  have ht : t.val = (i 0).val * 16 + (i 1).val := rfl
  obtain ⟨e0, e1, e2, e3⟩ := idx_9 t
  refine ⟨t, flush0_9 t, ?_⟩
  rw [mem_blk9]
  intro a
  match a with
  | ⟨0, _⟩ =>
    show win0_9.index t (0 : Fin 4) * 1 ≤ (i 0).val ∧ (i 0).val < win0_9.index t (0 : Fin 4) * 1 + 1
    rw [e0, ht]; omega
  | ⟨1, _⟩ =>
    show win0_9.index t (1 : Fin 4) * 1 ≤ (i 1).val ∧ (i 1).val < win0_9.index t (1 : Fin 4) * 1 + 1
    rw [e1, ht]; omega
  | ⟨2, _⟩ =>
    show win0_9.index t (2 : Fin 4) * 2048 ≤ (i 2).val ∧ (i 2).val < win0_9.index t (2 : Fin 4) * 2048 + 2048
    rw [e2]; omega
  | ⟨3, _⟩ =>
    show win0_9.index t (3 : Fin 4) * 64 ≤ (i 3).val ∧ (i 3).val < win0_9.index t (3 : Fin 4) * 64 + 64
    rw [e3]; omega

/-- Result 9's array after the launch: the per-head projection of the arrays the launch finds. -/
theorem finalV (c : Dev nD) :
    (dat0 V c).arrAt 9 cfg0.N = headProj (V c main_arg0) (V c main_v5) (V c main_v8) :=
  (dat0 V c).arrAt_eq_of_cover 9 _ (fun t _ => flushedV V c t) cover9

end Cert.Mha.Qkv

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«163356_j62843961475635_2_alg».proof.Proof.LibKeepdims
import proofs.«163356_j62843961475635_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Region1Body.lean ====
/-
  One block of the attention step, read at an entry.

  At a grid point the body holds 512 query rows q, the head's 2048 key rows k and its 2048 value rows v, each row 64
  lanes wide, as arrays [1, 1, rows, 64]. It forms the 512 × 2048 table of scaled scores (Σ_d q(r, d) · k(t, d)) · (1/8),
  takes each row's maximum, the exponential of every score's distance below its row's maximum, each row's sum of those
  exponentials, and the quotient: row r of the result is the softmax of row r of the scores. That table is stored as the
  block of attention weights, and its product with the value rows, Σ_t w(r, t) · v(t, d), as the block of head outputs.

  Every row of the result depends on ONE query row and on all key (and value) rows, so the formulas are stated for a
  query row qr : Fin 64 → EReal and row tables kk, vv : Fin 2048 → Fin 64 → EReal; the specification's entries are
  these formulas at the rows of the whole arrays.
-/
import proofs.«163356_j62843961475635_2_alg».proof.Proof.Gen.KernelIdeal.Skeleton
import proofs.«163356_j62843961475635_2_alg».proof.Proof.MhaSpec
import proofs.«163356_j62843961475635_2_alg».proof.Proof.LibSoftmaxBlock
import proofs.«163356_j62843961475635_2_alg».proof.Proof.LibMatmulRhsT
import proofs.«163356_j62843961475635_2_alg».proof.Proof.LibPlainMatmul
import Idealize.ShloMosaic.Lib.Pipeline.Value
import Idealize.ShloMosaic.Lib.ValueIdx

noncomputable section

namespace Cert.Mha.Attn

open Idealize.ShloMosaic Idealize.ShloMosaic.ValueIdx Cert.LibMaxReduce
open Cert.KernelIdeal Cert.KernelIdeal.Gen

/-! ## The formulas of one query row -/

/-- The scaled score of a query row against key row t. -/
def rowScore (qr : Fin 64 → EReal) (kk : Fin 2048 → Fin 64 → EReal) (t : Fin 2048) : EReal :=
  (∑ d : Fin 64, qr d * kk t d) * scale

/-- The exponential of a score's distance below the row's maximum. -/
def rowExp (qr : Fin 64 → EReal) (kk : Fin 2048 → Fin 64 → EReal) (t : Fin 2048) : EReal :=
  Ideal.exp (rowScore qr kk t - foldMax negInf (fun u : Fin 2048 => rowScore qr kk u))

/-- One attention weight of the row. -/
def rowWeight (qr : Fin 64 → EReal) (kk : Fin 2048 → Fin 64 → EReal) (t : Fin 2048) : EReal :=
  Ideal.div (rowExp qr kk t) (∑ u : Fin 2048, rowExp qr kk u)

/-- One lane of the row's output: the weighted sum of the value rows. -/
def rowAttn (qr : Fin 64 → EReal) (kk vv : Fin 2048 → Fin 64 → EReal) (d : Fin 64) : EReal :=
  ∑ t : Fin 2048, rowWeight qr kk t * vv t d

/-- The specification's weight is the row formula at the arrays' rows. -/
theorem weightAt_eq_row (Q K : Heads) (n : Fin 2) (h : Fin 16) (s t : Fin 2048) :
    weightAt Q K n h s t = rowWeight (fun d => Q (ix4 n h s d)) (fun u d => K (ix4 n h u d)) t := rfl

/-- The specification's head output is the row formula at the arrays' rows. -/
theorem attnAt_eq_row (Q K V : Heads) (n : Fin 2) (h : Fin 16) (s : Fin 2048) (d : Fin 64) :
    attnAt Q K V n h s d
      = rowAttn (fun e => Q (ix4 n h s e)) (fun u e => K (ix4 n h u e)) (fun u e => V (ix4 n h u e)) d := rfl

/-! ## Two leading unit axes -/

/-- An array [1, 1, a, b] viewed as the matrix [a, b]: entry (x, y) is entry (0, 0, x, y). -/
theorem cast_11ab_ab {α : Type} {a b : ℕ} (x : (⟨4, ![1, 1, a, b]⟩ : Shape).Idx → α)
    (h : (⟨4, ![1, 1, a, b]⟩ : Shape).ShapeCasts ⟨2, ![a, b]⟩) (p : Fin a) (e : Fin b) :
    shapeCast ⟨2, ![a, b]⟩ x h (ix2 p e) = x (ix4 (0 : Fin 1) (0 : Fin 1) p e) :=
  shapeCast_apply x h _ _ (by
    rw [Shape.rowMajor_val_four, Shape.rowMajor_val_two]
    show ((0 * 1 + 0) * a + p.val) * b + e.val = p.val * b + e.val
    simp only [Nat.zero_mul, Nat.zero_add])

/-- A matrix [a, b] viewed as the array [1, 1, a, b]: entry (0, 0, x, y) is entry (x, y). -/
theorem cast_ab_11ab {α : Type} {a b : ℕ} (x : (⟨2, ![a, b]⟩ : Shape).Idx → α)
    (h : (⟨2, ![a, b]⟩ : Shape).ShapeCasts ⟨4, ![1, 1, a, b]⟩) (p : Fin a) (e : Fin b) :
    shapeCast ⟨4, ![1, 1, a, b]⟩ x h (ix4 (0 : Fin 1) (0 : Fin 1) p e) = x (ix2 p e) :=
  shapeCast_apply x h _ _ (by
    rw [Shape.rowMajor_val_four, Shape.rowMajor_val_two]
    show p.val * b + e.val = ((0 * 1 + 0) * a + p.val) * b + e.val
    simp only [Nat.zero_mul, Nat.zero_add])

/-! ## The scale -/

/-- The word 0x3E000000 is the binary32 number 1/8. -/
theorem scale_word : Ideal.ofBits .f32 0x3E000000#32 = scale := by
  unfold scale
  simp [Ideal.ofBits, Ideal.ieee, -EReal.coe_mul]; norm_num

/-! ## The block's tables -/

theorem dims_qk : dot_S512x64_S2048x64_S512x2048_1_1_0_0_n_n = DotDims.transposedRhs 512 64 2048 := rfl
theorem dims_wv : dot_S512x2048_S2048x64_S512x64_1_0_0_1_n_n = DotDims.plain 512 2048 64 := rfl

/-- Row r of the query block. -/
abbrev qRow (q : Vec Ideal S1x1x512x64 .bf16) (r : Fin 512) : Fin 64 → EReal := fun d => q (ix4 (0 : Fin 1) (0 : Fin 1) r d)
/-- The rows of a key or value block. -/
abbrev kvRows (k : Vec Ideal S1x1x2048x64 .bf16) : Fin 2048 → Fin 64 → EReal := fun t d => k (ix4 (0 : Fin 1) (0 : Fin 1) t d)

/-- The block's table of scaled scores. -/
def scoreBlk (q : Vec Ideal S1x1x512x64 .bf16) (k : Vec Ideal S1x1x2048x64 .bf16) : FVec Ideal S512x2048 .f32 :=
  mulf (matmul dot_S512x64_S2048x64_S512x2048_1_1_0_0_n_n none
      (shapeCast S512x64 q shapeCasts_S1x1x512x64_S512x64 : FVec Ideal S512x64 .bf16)
      (shapeCast S2048x64 k shapeCasts_S1x1x2048x64_S2048x64 : FVec Ideal S2048x64 .bf16) (constant S512x2048 .f32 0x00000000#32))
    (broadcast S512x2048 (Scalar.ofBits .f32 0x3E000000#32))

/-- The table of exponentials below each row's maximum. -/
def expBlk (q : Vec Ideal S1x1x512x64 .bf16) (k : Vec Ideal S1x1x2048x64 .bf16) : FVec Ideal S512x2048 .f32 :=
  exp (subf (scoreBlk q k) (broadcastTo S512x2048 (shapeCast S512x1
    (multiReduction .maximumf [1] S512 (scoreBlk q k) 0xFF800000#32 reduces_S512x2048_S512 (.inl rfl) rfl)
    shapeCasts_S512_S512x1) broadcasts_S512x1_S512x2048))

/-- The body's table of weights is each exponential over its row's sum. -/
theorem pay1_eq (q : Vec Ideal S1x1x512x64 .bf16) (k : Vec Ideal S1x1x2048x64 .bf16) :
    k1_pay1 q k = divf (expBlk q k) (broadcastTo S512x2048 (shapeCast S512x1
      (multiReduction .add [1] S512 (expBlk q k) 0x00000000#32 reduces_S512x2048_S512 (.inl rfl) rfl)
      shapeCasts_S512_S512x1) broadcasts_S512x1_S512x2048) := rfl

/-- A scaled score of the block, read at (r, m). -/
theorem scoreBlk_apply (q : Vec Ideal S1x1x512x64 .bf16) (k : Vec Ideal S1x1x2048x64 .bf16) (r : Fin 512) (m : Fin 2048) :
    scoreBlk q k (ix2 r m) = rowScore (qRow q r) (kvRows k) m := by
  unfold scoreBlk rowScore
  rw [dims_qk]
  refine congrArg₂ (· * ·) ?_ scale_word
  refine (Cert.LibMatmulRhsT.matmul_transposedRhs_zero_apply 512 64 2048 none _ _ r m).trans ?_
  refine Finset.sum_congr rfl fun d _ => ?_
  exact congrArg₂ (· * ·) (cast_11ab_ab q shapeCasts_S1x1x512x64_S512x64 r d) (cast_11ab_ab k shapeCasts_S1x1x2048x64_S2048x64 m d)

/-- An exponential of the block, read at (r, m). -/
theorem expBlk_apply (q : Vec Ideal S1x1x512x64 .bf16) (k : Vec Ideal S1x1x2048x64 .bf16) (r : Fin 512) (m : Fin 2048) :
    expBlk q k (ix2 r m) = rowExp (qRow q r) (kvRows k) m := by
  unfold expBlk rowExp
  refine (Cert.LibSoftmaxBlock.expBelowRowMax_apply (scoreBlk q k) 0xFF800000#32 reduces_S512x2048_S512 (.inl rfl) rfl
    shapeCasts_S512_S512x1 broadcasts_S512x1_S512x2048 r m).trans ?_
  rw [scoreBlk_apply]
  refine congrArg (fun z : EReal => Ideal.exp (rowScore (qRow q r) (kvRows k) m - z)) ?_
  exact congrArg (foldMax negInf) (funext fun u => scoreBlk_apply q k r u)

/-- A weight of the block, read at (r, m). -/
theorem pay1_apply (q : Vec Ideal S1x1x512x64 .bf16) (k : Vec Ideal S1x1x2048x64 .bf16) (r : Fin 512) (m : Fin 2048) :
    k1_pay1 q k (ix2 r m) = rowWeight (qRow q r) (kvRows k) m := by
  rw [pay1_eq]
  unfold rowWeight
  refine (Cert.LibSoftmaxBlock.overRowSum_apply (expBlk q k) 0x00000000#32 reduces_S512x2048_S512 (.inl rfl) rfl
    shapeCasts_S512_S512x1 broadcasts_S512x1_S512x2048 r m).trans ?_
  rw [expBlk_apply]
  exact congrArg (fun z : EReal => Ideal.div (rowExp (qRow q r) (kvRows k) m) z) (Finset.sum_congr rfl fun u _ => expBlk_apply q k r u)

/-! ## What the body stores -/

/-- The stored block of weights at (0, 0, r, m): the softmax of query row r at key row m. -/
theorem pay2_apply (q : Vec Ideal S1x1x512x64 .bf16) (k : Vec Ideal S1x1x2048x64 .bf16) (r : Fin 512) (m : Fin 2048) :
    k1_pay2 q k (ix4 (0 : Fin 1) (0 : Fin 1) r m) = rowWeight (qRow q r) (kvRows k) m := by
  unfold k1_pay2
  exact (cast_ab_11ab (k1_pay1 q k) shapeCasts_S512x2048_S1x1x512x2048 r m).trans (pay1_apply q k r m)

/-- The stored block of head outputs at (0, 0, r, d): the weighted sum of the value rows' lane d. -/
theorem pay3_apply (q : Vec Ideal S1x1x512x64 .bf16) (k v : Vec Ideal S1x1x2048x64 .bf16) (r : Fin 512) (d : Fin 64) :
    k1_pay3 q k v (ix4 (0 : Fin 1) (0 : Fin 1) r d) = rowAttn (qRow q r) (kvRows k) (kvRows v) d := by
  unfold k1_pay3 rowAttn
  rw [dims_wv]
  refine (cast_ab_11ab _ shapeCasts_S512x64_S1x1x512x64 r d).trans ?_
  refine (Idealize.ShloMosaic.ValueIdx.matmul_plain_zero_apply 512 2048 64 none _ _ r d).trans ?_
  refine Finset.sum_congr rfl fun t _ => ?_
  exact congrArg₂ (· * ·) (pay1_apply q k r t) (cast_11ab_ab v shapeCasts_S1x1x2048x64_S2048x64 t d)

end Cert.Mha.Attn

end
-- ==== Proof.Region1.lean ====
/-
  The attention step over the whole arrays.

  The launch runs over a grid of 2 × 16 × 4 points: a batch entry n, a head h, and one of four blocks of 512 query rows.
  At the point (n, h, b) the body is given query rows 512·b … 512·b + 511 of (n, h) and ALL 2048 key rows and value
  rows of (n, h), and writes back rows 512·b … 512·b + 511 of the weights and of the head outputs of (n, h).

  A softmax row needs one query row and every key row, so each written row is complete: entry (r, m) of the block of
  weights is the specification's weight of query row 512·b + r against key row m, and entry (r, d) of the block of head
  outputs is the specification's weighted sum over all value rows. The written blocks are therefore blocks of ONE
  function of the whole query, key and value arrays; the 128 blocks tile each output array (row s of (n, h) lies in the
  block of the point (n, h, s / 512)), so after the launch each output array holds that function everywhere.
-/
import proofs.«163356_j62843961475635_2_alg».proof.Proof.Gen.KernelIdeal.Frame
import proofs.«163356_j62843961475635_2_alg».proof.Proof.Region1Body
import Idealize.ShloMosaic.Lib.Pipeline.Value

set_option maxRecDepth 16384

noncomputable section

namespace Cert.Mha.Attn

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem hz4 : (![0, 0, 0, 0] : Fin 4 → Nat) = fun _ => 0 := funext fun a => by fin_cases a <;> rfl

/-- The block indices at a grid point, decided over the grid. -/
theorem idx_facts : ∀ t : Fin cfg1.N,
    (win1_0.index t (0 : Fin 4) = win1_4.index t (0 : Fin 4) ∧ win1_0.index t (1 : Fin 4) = win1_4.index t (1 : Fin 4)
      ∧ win1_0.index t (2 : Fin 4) = win1_4.index t (2 : Fin 4) ∧ win1_0.index t (3 : Fin 4) = 0)
    ∧ (win1_1.index t (0 : Fin 4) = win1_4.index t (0 : Fin 4) ∧ win1_1.index t (1 : Fin 4) = win1_4.index t (1 : Fin 4)
      ∧ win1_1.index t (2 : Fin 4) = 0 ∧ win1_1.index t (3 : Fin 4) = 0)
    ∧ (win1_2.index t (0 : Fin 4) = win1_4.index t (0 : Fin 4) ∧ win1_2.index t (1 : Fin 4) = win1_4.index t (1 : Fin 4)
      ∧ win1_2.index t (2 : Fin 4) = 0 ∧ win1_2.index t (3 : Fin 4) = 0)
    ∧ (win1_3.index t (0 : Fin 4) = win1_4.index t (0 : Fin 4) ∧ win1_3.index t (1 : Fin 4) = win1_4.index t (1 : Fin 4)
      ∧ win1_3.index t (2 : Fin 4) = win1_4.index t (2 : Fin 4) ∧ win1_3.index t (3 : Fin 4) = 0)
    ∧ (win1_4.index t (0 : Fin 4) ≤ 1 ∧ win1_4.index t (1 : Fin 4) ≤ 15 ∧ win1_4.index t (2 : Fin 4) ≤ 3
      ∧ win1_4.index t (3 : Fin 4) = 0) :=
  (by decide +kernel : ∀ t : Fin grid1.N, _)

/-- Every (batch, head, block of query rows) is some grid point's. -/
theorem idx_onto : ∀ (q0 : Fin 2) (q1 : Fin 16) (q2 : Fin 4), ∃ t : Fin cfg1.N, win1_4.index t = ![q0.val, q1.val, q2.val, 0] :=
  (by decide +kernel : ∀ (q0 : Fin 2) (q1 : Fin 16) (q2 : Fin 4), ∃ t : Fin grid1.N, win1_4.index t = ![q0.val, q1.val, q2.val, 0])

/-! ## An input block's entry is the array's entry -/

/-- Query rows: entry (0, 0, r, d) of the block at point t is the array's entry at (batch, head, 512·(row block) + r, d). -/
theorem qblk_apply (c : Dev nD) (t : Fin cfg1.N) (r : Fin 512) (d : Fin 64) (i : S2x16x2048x64.Idx)
    (h0 : (i 0).val = win1_4.index t (0 : Fin 4)) (h1 : (i 1).val = win1_4.index t (1 : Fin 4))
    (h2 : (i 2).val = win1_4.index t (2 : Fin 4) * 512 + r.val) (h3 : (i 3).val = d.val) :
    (iblk1 V c 0 t : Vec Ideal S1x1x512x64 .bf16) (ix4 (0 : Fin 1) (0 : Fin 1) r d)
      = (V c main_v9_0 : S2x16x2048x64.Idx → EReal) i := by
  obtain ⟨⟨e0, e1, e2, e3⟩, -⟩ := idx_facts t
  show (V c main_v9_0 : S2x16x2048x64.Idx → EReal) (((cfg1.win 0).blk t).view.emb (ix4 (0 : Fin 1) (0 : Fin 1) r d)) = _
  refine congrArg (V c main_v9_0 : S2x16x2048x64.Idx → EReal) (funext fun a => Fin.ext ?_)
  match a with
  | ⟨0, _⟩ => show win1_0.index t (0 : Fin 4) * 1 + 1 * 0 = (i 0).val; omega
  | ⟨1, _⟩ => show win1_0.index t (1 : Fin 4) * 1 + 1 * 0 = (i 1).val; omega
  | ⟨2, _⟩ => show win1_0.index t (2 : Fin 4) * 512 + 1 * r.val = (i 2).val; omega
  | ⟨3, _⟩ => show win1_0.index t (3 : Fin 4) * 64 + 1 * d.val = (i 3).val; omega

/-- Key rows: entry (0, 0, u, d) of the block at point t is the array's entry at (batch, head, u, d). -/
theorem kblk_apply (c : Dev nD) (t : Fin cfg1.N) (u : Fin 2048) (d : Fin 64) (i : S2x16x2048x64.Idx)
    (h0 : (i 0).val = win1_4.index t (0 : Fin 4)) (h1 : (i 1).val = win1_4.index t (1 : Fin 4))
    (h2 : (i 2).val = u.val) (h3 : (i 3).val = d.val) :
    (iblk1 V c 1 t : Vec Ideal S1x1x2048x64 .bf16) (ix4 (0 : Fin 1) (0 : Fin 1) u d)
      = (V c main_v9_1 : S2x16x2048x64.Idx → EReal) i := by
  obtain ⟨-, ⟨e0, e1, e2, e3⟩, -⟩ := idx_facts t
  show (V c main_v9_1 : S2x16x2048x64.Idx → EReal) (((cfg1.win 1).blk t).view.emb (ix4 (0 : Fin 1) (0 : Fin 1) u d)) = _
  refine congrArg (V c main_v9_1 : S2x16x2048x64.Idx → EReal) (funext fun a => Fin.ext ?_)
  match a with
  | ⟨0, _⟩ => show win1_1.index t (0 : Fin 4) * 1 + 1 * 0 = (i 0).val; omega
  | ⟨1, _⟩ => show win1_1.index t (1 : Fin 4) * 1 + 1 * 0 = (i 1).val; omega
  | ⟨2, _⟩ => show win1_1.index t (2 : Fin 4) * 2048 + 1 * u.val = (i 2).val; omega
  | ⟨3, _⟩ => show win1_1.index t (3 : Fin 4) * 64 + 1 * d.val = (i 3).val; omega

/-- Value rows: entry (0, 0, u, d) of the block at point t is the array's entry at (batch, head, u, d). -/
theorem vblk_apply (c : Dev nD) (t : Fin cfg1.N) (u : Fin 2048) (d : Fin 64) (i : S2x16x2048x64.Idx)
    (h0 : (i 0).val = win1_4.index t (0 : Fin 4)) (h1 : (i 1).val = win1_4.index t (1 : Fin 4))
    (h2 : (i 2).val = u.val) (h3 : (i 3).val = d.val) :
    (iblk1 V c 2 t : Vec Ideal S1x1x2048x64 .bf16) (ix4 (0 : Fin 1) (0 : Fin 1) u d)
      = (V c main_v9_2 : S2x16x2048x64.Idx → EReal) i := by
  obtain ⟨-, -, ⟨e0, e1, e2, e3⟩, -⟩ := idx_facts t
  show (V c main_v9_2 : S2x16x2048x64.Idx → EReal) (((cfg1.win 2).blk t).view.emb (ix4 (0 : Fin 1) (0 : Fin 1) u d)) = _
  refine congrArg (V c main_v9_2 : S2x16x2048x64.Idx → EReal) (funext fun a => Fin.ext ?_)
  match a with
  | ⟨0, _⟩ => show win1_2.index t (0 : Fin 4) * 1 + 1 * 0 = (i 0).val; omega
  | ⟨1, _⟩ => show win1_2.index t (1 : Fin 4) * 1 + 1 * 0 = (i 1).val; omega
  | ⟨2, _⟩ => show win1_2.index t (2 : Fin 4) * 2048 + 1 * u.val = (i 2).val; omega
  | ⟨3, _⟩ => show win1_2.index t (3 : Fin 4) * 64 + 1 * d.val = (i 3).val; omega

/-! ## What a point writes back -/

/-- The row formula of the head output depends only on the rows it is given. -/
theorem rowAttn_congr {qr qr' : Fin 64 → EReal} {kk kk' vv vv' : Fin 2048 → Fin 64 → EReal}
    (hq : qr = qr') (hk : kk = kk') (hv : vv = vv') (d : Fin 64) : rowAttn qr kk vv d = rowAttn qr' kk' vv' d := by
  subst hq hk hv; rfl

/-- Point t's write-back of the weights is block t of the specification's weights. -/
theorem flushed_weights (c : Dev nD) (t : Fin cfg1.N) :
    (dat1 V c).flushed 4 t = ((cfg1.win 4).blk t).view.read (Elt Ideal)
      (weights (V c main_v9_0 : S2x16x2048x64.Idx → EReal) (V c main_v9_1 : S2x16x2048x64.Idx → EReal)) := by
  show (cfg1.win 4).cut (grid1.coords t) ((dat1 V c).after 4 t) = _
  rw [after1_4]
  unfold out1_4
  rw [View.canon_unit_zero hz4]
  simp only [View.ld_unit_zero (S := S1x1x512x64) hz4, View.ld_unit_zero (S := S1x1x2048x64) hz4]
  obtain ⟨-, -, -, -, ⟨b0, b1, b2, b3⟩⟩ := idx_facts t
  funext j
  revert j
  show ∀ j : S1x1x512x2048.Idx, k1_pay2 (iblk1 V c 0 t) (iblk1 V c 1 t) j
    = weights (V c main_v9_0 : S2x16x2048x64.Idx → EReal) (V c main_v9_1 : S2x16x2048x64.Idx → EReal) (((cfg1.win 4).blk t).view.emb j)
  intro j
  obtain ⟨u, v, r, m, rfl⟩ : ∃ (u v : Fin 1) (r : Fin 512) (m : Fin 2048), j = ix4 u v r m := ⟨j 0, j 1, j 2, j 3, eq_ix4 j⟩
  obtain rfl : u = 0 := Subsingleton.elim _ _
  obtain rfl : v = 0 := Subsingleton.elim _ _
  have hr : r.val < 512 := r.isLt
  refine (pay2_apply (iblk1 V c 0 t) (iblk1 V c 1 t) r m).trans ?_
  have hemb : ((cfg1.win 4).blk t).view.emb (ix4 (0 : Fin 1) (0 : Fin 1) r m)
      = ix4 (⟨win1_4.index t (0 : Fin 4), by omega⟩ : Fin 2) (⟨win1_4.index t (1 : Fin 4), by omega⟩ : Fin 16)
          (⟨win1_4.index t (2 : Fin 4) * 512 + r.val, by omega⟩ : Fin 2048) m := by
    funext a; apply Fin.ext
    match a with
    | ⟨0, _⟩ => show win1_4.index t (0 : Fin 4) * 1 + 1 * 0 = win1_4.index t (0 : Fin 4); omega
    | ⟨1, _⟩ => show win1_4.index t (1 : Fin 4) * 1 + 1 * 0 = win1_4.index t (1 : Fin 4); omega
    | ⟨2, _⟩ => show win1_4.index t (2 : Fin 4) * 512 + 1 * r.val = win1_4.index t (2 : Fin 4) * 512 + r.val; omega
    | ⟨3, _⟩ => show win1_4.index t (3 : Fin 4) * 2048 + 1 * m.val = m.val; omega
  rw [hemb, weights_ix4, weightAt_eq_row]
  refine congrArg₂ (fun a b => rowWeight a b m) (funext fun d => ?_) (funext fun u => funext fun d => ?_)
  · exact qblk_apply V c t r d _ rfl rfl rfl rfl
  · exact kblk_apply V c t u d _ rfl rfl rfl rfl

/-- Point t's write-back of the head outputs is block t of the specification's head outputs. -/
theorem flushed_attn (c : Dev nD) (t : Fin cfg1.N) :
    (dat1 V c).flushed 3 t = ((cfg1.win 3).blk t).view.read (Elt Ideal)
      (attn (V c main_v9_0 : S2x16x2048x64.Idx → EReal) (V c main_v9_1 : S2x16x2048x64.Idx → EReal)
        (V c main_v9_2 : S2x16x2048x64.Idx → EReal)) := by
  show (cfg1.win 3).cut (grid1.coords t) ((dat1 V c).after 3 t) = _
  rw [after1_3]
  unfold out1_3
  rw [View.canon_unit_zero hz4]
  simp only [View.ld_unit_zero (S := S1x1x512x64) hz4, View.ld_unit_zero (S := S1x1x2048x64) hz4]
  obtain ⟨-, -, -, ⟨e0, e1, e2, e3⟩, ⟨b0, b1, b2, b3⟩⟩ := idx_facts t
  funext j
  revert j
  show ∀ j : S1x1x512x64.Idx, k1_pay3 (iblk1 V c 0 t) (iblk1 V c 1 t) (iblk1 V c 2 t) j
    = attn (V c main_v9_0 : S2x16x2048x64.Idx → EReal) (V c main_v9_1 : S2x16x2048x64.Idx → EReal)
        (V c main_v9_2 : S2x16x2048x64.Idx → EReal) (((cfg1.win 3).blk t).view.emb j)
  intro j
  obtain ⟨u, v, r, d, rfl⟩ : ∃ (u v : Fin 1) (r : Fin 512) (d : Fin 64), j = ix4 u v r d := ⟨j 0, j 1, j 2, j 3, eq_ix4 j⟩
  obtain rfl : u = 0 := Subsingleton.elim _ _
  obtain rfl : v = 0 := Subsingleton.elim _ _
  have hr : r.val < 512 := r.isLt
  refine (pay3_apply (iblk1 V c 0 t) (iblk1 V c 1 t) (iblk1 V c 2 t) r d).trans ?_
  have hemb : ((cfg1.win 3).blk t).view.emb (ix4 (0 : Fin 1) (0 : Fin 1) r d)
      = ix4 (⟨win1_4.index t (0 : Fin 4), by omega⟩ : Fin 2) (⟨win1_4.index t (1 : Fin 4), by omega⟩ : Fin 16)
          (⟨win1_4.index t (2 : Fin 4) * 512 + r.val, by omega⟩ : Fin 2048) d := by
    funext a; apply Fin.ext
    match a with
    | ⟨0, _⟩ => show win1_3.index t (0 : Fin 4) * 1 + 1 * 0 = win1_4.index t (0 : Fin 4); omega
    | ⟨1, _⟩ => show win1_3.index t (1 : Fin 4) * 1 + 1 * 0 = win1_4.index t (1 : Fin 4); omega
    | ⟨2, _⟩ => show win1_3.index t (2 : Fin 4) * 512 + 1 * r.val = win1_4.index t (2 : Fin 4) * 512 + r.val; omega
    | ⟨3, _⟩ => show win1_3.index t (3 : Fin 4) * 64 + 1 * d.val = d.val; omega
  rw [hemb, attn_ix4, attnAt_eq_row]
  refine rowAttn_congr (funext fun e => ?_) (funext fun u => funext fun e => ?_) (funext fun u => funext fun e => ?_) d
  · exact qblk_apply V c t r e _ rfl rfl rfl rfl
  · exact kblk_apply V c t u e _ rfl rfl rfl rfl
  · exact vblk_apply V c t u e _ rfl rfl rfl rfl

/-! ## The blocks tile the arrays -/

/-- An index of the weights array is in point t's block iff each coordinate is in the block's range. -/
theorem mem_blk_weights (t : Fin cfg1.N) (i : S2x16x2048x2048.Idx) :
    i ∈ ((cfg1.win 4).blk t).view.set ↔ ∀ a : Fin 4, win1_4.index t a * S1x1x512x2048.size a ≤ (i a).val
      ∧ (i a).val < win1_4.index t a * S1x1x512x2048.size a + S1x1x512x2048.size a := by
  show i ∈ ((View.whole main_v10_1).slice (win1_4.rect t)).set ↔ _
  rw [View.set_slice_whole, Rect.mem_set_unit]
  exact Iff.rfl

/-- An index of the head-output array is in point t's block iff each coordinate is in the block's range. -/
theorem mem_blk_attn (t : Fin cfg1.N) (i : S2x16x2048x64.Idx) :
    i ∈ ((cfg1.win 3).blk t).view.set ↔ ∀ a : Fin 4, win1_3.index t a * S1x1x512x64.size a ≤ (i a).val
      ∧ (i a).val < win1_3.index t a * S1x1x512x64.size a + S1x1x512x64.size a := by
  show i ∈ ((View.whole main_v10_0).slice (win1_3.rect t)).set ↔ _
  rw [View.set_slice_whole, Rect.mem_set_unit]
  exact Iff.rfl

/-- Entry (n, h, s, ·) of the weights is written by the point (n, h, s / 512). -/
theorem cover_weights (i : S2x16x2048x2048.Idx) :
    ∃ t : Fin cfg1.N, (cfg1.win 4).flush t = true ∧ i ∈ ((cfg1.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win1_4.index t (0 : Fin 4) = (i 0).val := congrFun ht 0
  have q1 : win1_4.index t (1 : Fin 4) = (i 1).val := congrFun ht 1
  have q2 : win1_4.index t (2 : Fin 4) = (i 2).val / 512 := congrFun ht 2
  have q3 : win1_4.index t (3 : Fin 4) = 0 := congrFun ht 3
  refine ⟨t, flush1_4 t, ?_⟩
  rw [mem_blk_weights]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 512 ≤ (i 2).val ∧ (i 2).val < win1_4.index t (2 : Fin 4) * 512 + 512; omega
  | ⟨3, _⟩ => show win1_4.index t (3 : Fin 4) * 2048 ≤ (i 3).val ∧ (i 3).val < win1_4.index t (3 : Fin 4) * 2048 + 2048; omega

/-- Entry (n, h, s, ·) of the head outputs is written by the point (n, h, s / 512). -/
theorem cover_attn (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, ⟨e0, e1, e2, e3⟩, -⟩ := idx_facts t
  have q0 : win1_4.index t (0 : Fin 4) = (i 0).val := congrFun ht 0
  have q1 : win1_4.index t (1 : Fin 4) = (i 1).val := congrFun ht 1
  have q2 : win1_4.index t (2 : Fin 4) = (i 2).val / 512 := congrFun ht 2
  refine ⟨t, flush1_3 t, ?_⟩
  rw [mem_blk_attn]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-! ## The arrays after the launch -/

/-- After the launch the weights array holds the specification's attention weights of the query and key arrays. -/
theorem weights_final (c : Dev nD) :
    (dat1 (F := Ideal) V c).arrAt 4 cfg1.N
      = weights (V c main_v9_0 : S2x16x2048x64.Idx → EReal) (V c main_v9_1 : S2x16x2048x64.Idx → EReal) :=
  (dat1 (F := Ideal) V c).arrAt_eq_of_cover 4
    (weights (V c main_v9_0 : S2x16x2048x64.Idx → EReal) (V c main_v9_1 : S2x16x2048x64.Idx → EReal))
    (fun t _ => flushed_weights V c t) cover_weights

/-- After the launch the head-output array holds the specification's head outputs of the query, key and value arrays. -/
theorem attn_final (c : Dev nD) :
    (dat1 (F := Ideal) V c).arrAt 3 cfg1.N
      = attn (V c main_v9_0 : S2x16x2048x64.Idx → EReal) (V c main_v9_1 : S2x16x2048x64.Idx → EReal)
          (V c main_v9_2 : S2x16x2048x64.Idx → EReal) :=
  (dat1 (F := Ideal) V c).arrAt_eq_of_cover 3
    (attn (V c main_v9_0 : S2x16x2048x64.Idx → EReal) (V c main_v9_1 : S2x16x2048x64.Idx → EReal)
      (V c main_v9_2 : S2x16x2048x64.Idx → EReal))
    (fun t _ => flushed_attn V c t) cover_attn

end Cert.Mha.Attn

end
-- ==== Proof.Region2.lean ====
/-
  The output projection's launch: rows of the flattened attention output, 512 at a time, times the transposed
  weight matrix, plus the bias row.

  Each grid point i reads rows 512·i … 512·i + 511 of A : [4096, 1024], the whole W : [1024, 1024] and the bias row
  b : [1, 1024], and writes the same rows of the result: entry (r, e) is  Σ_k A(r, k) · W(e, k) + b(0, e).
  The eight row blocks tile the result, so the result array ends as that function of the three arrays.
-/
import proofs.«163356_j62843961475635_2_alg».proof.Proof.Gen.KernelIdeal.Frame
import proofs.«163356_j62843961475635_2_alg».proof.Proof.LibMatmulRhsT
import proofs.«163356_j62843961475635_2_alg».proof.Proof.LibRowBroadcast
import Idealize.ShloMosaic.Lib.Pipeline.Value
import Idealize.ShloMosaic.Lib.ValueIdx
import Idealize.ShloMosaic.Lib.ValueLayout

set_option maxRecDepth 16384

noncomputable section

namespace Cert.Mha.Lin

open Cert.KernelIdeal Cert.KernelIdeal.Gen
open Idealize.ShloMosaic Idealize.ShloMosaic.TcCoe Idealize.SL.Sem Idealize.ShloMosaic.ValueIdx
open Idealize.ShloMosaic.Pipeline (Dat)

/-- One entry of rows-times-transposed-weights plus bias. -/
def linAt (A : S4096x1024.Idx → EReal) (W : S1024x1024.Idx → EReal) (b : S1x1024.Idx → EReal) (r : Fin 4096) (e : Fin 1024) : EReal :=
  (∑ k : Fin 1024, A (ix2 r k) * W (ix2 e k)) + b (ix2 (0 : Fin 1) e)

/-- Rows times transposed weights plus bias, as an array. -/
def lin (A : S4096x1024.Idx → EReal) (W : S1024x1024.Idx → EReal) (b : S1x1024.Idx → EReal) : S4096x1024.Idx → EReal :=
  fun j => linAt A W b (j 0) (j 1)

/-- The printed dimension numbers are those of a product with the right operand transposed. -/
theorem dims_eq : dot_S512x1024_S1024x1024_S512x1024_1_1_0_0_n_n = DotDims.transposedRhs 512 1024 1024 := rfl

/-- What one grid point stores, read at (r, e): row r of its block against row e of the weights, plus the bias. -/
theorem pay_apply (a : Vec Ideal S512x1024 .bf16) (w : Vec Ideal S1024x1024 .bf16) (b : Vec Ideal S1x1024 .f32)
    (r : Fin 512) (e : Fin 1024) :
    k2_pay1 a w b (ix2 r e) = (∑ k : Fin 1024, a (ix2 r k) * w (ix2 e k)) + b (ix2 (0 : Fin 1) e) := by
  unfold k2_pay1
  rw [shapeCast_self, shapeCast_self, shapeCast_self, dims_eq]
  refine congrArg₂ (· + ·) ?_ ?_
  · exact Cert.LibMatmulRhsT.matmul_transposedRhs_zero_apply 512 1024 1024 none a w r e
  · exact Cert.LibRowBroadcast.broadcastTo_1b_ab_apply b _ r e 0

/-! ## From the row blocks to the array -/

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the eight grid points: the activations' and the result's blocks move down the rows
    with the point; the weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row 512·t + r of the flattened rows. -/
def rowOf (t : Fin cfg2.N) (r : Fin 512) : Fin 4096 :=
  ⟨t.val * 512 + r.val, by have := t.isLt; have hN : cfg2.N = 8 := N_2; have := r.isLt; omega⟩

/-- Entry (r, k) of the activations' block at point t is entry (512·t + r, k) of the array. -/
theorem actBlock_apply (c : Dev nD) (t : Fin cfg2.N) (r : Fin 512) (k : Fin 1024) :
    iblk2 V c 0 t (ix2 r k) = (V c main_v12 : S4096x1024.Idx → EReal) (ix2 (rowOf t r) k) := by
  obtain ⟨e0, e1, -⟩ := idx_facts t
  show V c main_v12 (((cfg2.win 0).blk t).view.emb (ix2 r k)) = _
  refine congrArg _ (funext fun a => Fin.ext ?_)
  match a with
  | ⟨0, _⟩ => show win2_0.index t (0 : Fin 2) * 512 + 1 * r.val = t.val * 512 + r.val; rw [e0]; omega
  | ⟨1, _⟩ => show win2_0.index t (1 : Fin 2) * 1024 + 1 * k.val = k.val; rw [e1]; omega

/-- The weights' block is the whole matrix. -/
theorem weightBlock_apply (c : Dev nD) (t : Fin cfg2.N) (e k : Fin 1024) :
    iblk2 V c 1 t (ix2 e k) = (V c main_v13 : S1024x1024.Idx → EReal) (ix2 e k) := by
  obtain ⟨-, -, e2, e3, -⟩ := idx_facts t
  show V c main_v13 (((cfg2.win 1).blk t).view.emb (ix2 e k)) = _
  refine congrArg _ (funext fun a => Fin.ext ?_)
  match a with
  | ⟨0, _⟩ => show win2_1.index t (0 : Fin 2) * 1024 + 1 * e.val = e.val; rw [e2]; omega
  | ⟨1, _⟩ => show win2_1.index t (1 : Fin 2) * 1024 + 1 * k.val = k.val; rw [e3]; omega

/-- The bias' block is the whole row. -/
theorem biasBlock_apply (c : Dev nD) (t : Fin cfg2.N) (e : Fin 1024) :
    iblk2 V c 2 t (ix2 (0 : Fin 1) e) = (V c main_v14 : S1x1024.Idx → EReal) (ix2 (0 : Fin 1) e) := by
  obtain ⟨-, -, -, -, e4, e5, -⟩ := idx_facts t
  show V c main_v14 (((cfg2.win 2).blk t).view.emb (ix2 (0 : Fin 1) e)) = _
  refine congrArg _ (funext fun a => Fin.ext ?_)
  match a with
  | ⟨0, _⟩ => show win2_2.index t (0 : Fin 2) * 1 + 1 * 0 = 0; rw [e4]
  | ⟨1, _⟩ => show win2_2.index t (1 : Fin 2) * 1024 + 1 * e.val = e.val; rw [e5]; omega

/-- Entry (r, e) of the result's block at point t sits at (512·t + r, e) of the array. -/
theorem outBlock_emb (t : Fin cfg2.N) (r : Fin 512) (e : Fin 1024) :
    ((cfg2.win 3).blk t).view.emb (ix2 r e) = ix2 (rowOf t r) e := by
  obtain ⟨-, -, -, -, -, -, e6, e7⟩ := idx_facts t
  refine funext fun a => Fin.ext ?_
  match a with
  | ⟨0, _⟩ => show win2_3.index t (0 : Fin 2) * 512 + 1 * r.val = t.val * 512 + r.val; rw [e6]; omega
  | ⟨1, _⟩ => show win2_3.index t (1 : Fin 2) * 1024 + 1 * e.val = e.val; rw [e7]; omega

/-- What point t writes back is block t of the linear layer of the arrays the launch finds. -/
theorem flushed_eq (c : Dev nD) (t : Fin cfg2.N) :
    (dat2 V c).flushed 3 t = ((cfg2.win 3).blk t).view.read (Elt Ideal)
      (lin (V c main_v12) (V c main_v13) (V c main_v14)) := by
  show (cfg2.win 3).cut (grid2.coords t) ((dat2 V c).after 3 t) = _
  rw [after2_3]
  unfold out2_3
  rw [View.canon_unit_zero zeroOff]
  simp only [View.ld_unit_zero (S := S512x1024) zeroOff, View.ld_unit_zero (S := S1024x1024) zeroOff,
    View.ld_unit_zero (S := S1x1024) zeroOff]
  funext j
  obtain ⟨r, e, rfl⟩ : ∃ (r : Fin 512) (e : Fin 1024), j = ix2 r e := ⟨j 0, j 1, eq_ix2 j⟩
  show k2_pay1 (iblk2 V c 0 t) (iblk2 V c 1 t) (iblk2 V c 2 t) (ix2 r e)
    = lin (V c main_v12) (V c main_v13) (V c main_v14) (((cfg2.win 3).blk t).view.emb (ix2 r e))
  rw [outBlock_emb t r e]
  refine (pay_apply (iblk2 V c 0 t) (iblk2 V c 1 t) (iblk2 V c 2 t) r e).trans ?_
  show _ = linAt (V c main_v12) (V c main_v13) (V c main_v14) (rowOf t r) e
  unfold linAt
  rw [biasBlock_apply V c t e]
  refine congrArg (· + _) (Finset.sum_congr rfl fun k _ => ?_)
  rw [actBlock_apply V c t r k, weightBlock_apply V c t e k]

/-- An index of the result array is in point t's block iff each coordinate is in the block's range. -/
theorem mem_blk (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v15).slice (win2_3.rect t)).set ↔ _
  rw [View.set_slice_whole, Rect.mem_set_unit]
  exact Iff.rfl

/-- The eight row blocks cover the result array: row s is in block s / 512. -/
theorem cover (i : S4096x1024.Idx) : ∃ t : Fin cfg2.N, (cfg2.win 3).flush t = true ∧ i ∈ ((cfg2.win 3).blk t).view.set := by
  have hN : cfg2.N = 8 := N_2
  have hi0 : (i 0).val < 4096 := (i 0).isLt
  have hi1 : (i 1).val < 1024 := (i 1).isLt
  let t : Fin cfg2.N := ⟨(i 0).val / 512, by omega⟩
  obtain ⟨-, -, -, -, -, -, e6, e7⟩ := idx_facts t
  refine ⟨t, flush2_3 t, ?_⟩
  rw [mem_blk]
  intro a
  match a with
  | ⟨0, _⟩ =>
    show win2_3.index t (0 : Fin 2) * 512 ≤ (i 0).val ∧ (i 0).val < win2_3.index t (0 : Fin 2) * 512 + 512
    rw [e6]; show (i 0).val / 512 * 512 ≤ (i 0).val ∧ (i 0).val < (i 0).val / 512 * 512 + 512; omega
  | ⟨1, _⟩ =>
    show win2_3.index t (1 : Fin 2) * 1024 ≤ (i 1).val ∧ (i 1).val < win2_3.index t (1 : Fin 2) * 1024 + 1024
    rw [e7]; omega

/-- The result array after the launch: the linear layer of the three arrays the launch finds. -/
theorem final (c : Dev nD) :
    (dat2 V c).arrAt 3 cfg2.N = lin (V c main_v12) (V c main_v13) (V c main_v14) :=
  (dat2 V c).arrAt_eq_of_cover 3 _ (fun t _ => flushed_eq V c t) (cover)

end Cert.Mha.Lin

end
-- ==== Proof.KernelValue.lean ====
/-
  What the idealized kernel returns, as functions of its nine argument arrays.

  Reading the program's boundaries back from the return to the launch: the first result is the third launch's rows
  regrouped by batch; those rows are the output projection of the flattened heads; the heads' outputs and the attention
  weights are what the second launch leaves, functions of the three per-head projections the first launch leaves; and
  those are the projections of the activations by the regrouped weights and biases. Composed, the two results are the
  multi-head attention layer's output and its attention weights.
-/
import proofs.«163356_j62843961475635_2_alg».proof.Proof.NamedRun
import proofs.«163356_j62843961475635_2_alg».proof.Proof.HostSteps
import proofs.«163356_j62843961475635_2_alg».proof.Proof.Region0
import proofs.«163356_j62843961475635_2_alg».proof.Proof.Region1
import proofs.«163356_j62843961475635_2_alg».proof.Proof.Region2

set_option maxRecDepth 16384

noncomputable section

namespace Cert.Mha.Kernel

open Cert.KernelIdeal Cert.KernelIdeal.Gen Cert.Mha Cert.Mha.Host
open Idealize.ShloMosaic Idealize.ShloMosaic.TcCoe Idealize.SL.Sem Idealize.ShloMosaic.ValueIdx

variable (m : (ℓ : Loc nD τ sig) → Buf (Elt Ideal) ℓ) (ρ : Dev nD → PrngReg)

/-- A per-head projection by regrouped weights and bias is the projection split into heads. -/
theorem headProj_regrouped (X : Act) (W : Mat) (b : Bias) :
    Cert.Mha.Qkv.headProj X (fun j => W (ix2 (col (j 0) (j 1)) (j 2))) (fun j => b (ix1 (col (j 0) (j 2)))) = proj X W b :=
  rfl

/-- The first launch leaves the query projection. -/
theorem queries (c : Dev nD) : (V2 m ρ c main_v9_0 : S2x16x2048x64.Idx → EReal)
    = proj (m ((c : Thread nD τ).loc main_arg0)) (m ((c : Thread nD τ).loc main_arg1)) (m ((c : Thread nD τ).loc main_arg2)) := by
  refine ((W2_arr m ρ c 7).trans (Cert.Mha.Qkv.finalQ (V1 m ρ) c)).trans ?_
  rw [entry0_x m ρ c, entry0_wq m ρ c, entry0_bq m ρ c]
  exact headProj_regrouped _ _ _

/-- The first launch leaves the key projection. -/
theorem keys (c : Dev nD) : (V2 m ρ c main_v9_1 : S2x16x2048x64.Idx → EReal)
    = proj (m ((c : Thread nD τ).loc main_arg0)) (m ((c : Thread nD τ).loc main_arg3)) (m ((c : Thread nD τ).loc main_arg4)) := by
  refine ((W2_arr m ρ c 8).trans (Cert.Mha.Qkv.finalK (V1 m ρ) c)).trans ?_
  rw [entry0_x m ρ c, entry0_wk m ρ c, entry0_bk m ρ c]
  exact headProj_regrouped _ _ _

/-- The first launch leaves the value projection. -/
theorem values (c : Dev nD) : (V2 m ρ c main_v9_2 : S2x16x2048x64.Idx → EReal)
    = proj (m ((c : Thread nD τ).loc main_arg0)) (m ((c : Thread nD τ).loc main_arg5)) (m ((c : Thread nD τ).loc main_arg6)) := by
  refine ((W2_arr m ρ c 9).trans (Cert.Mha.Qkv.finalV (V1 m ρ) c)).trans ?_
  rw [entry0_x m ρ c, entry0_wv m ρ c, entry0_bv m ρ c]
  exact headProj_regrouped _ _ _

/-- The second launch leaves the heads' outputs. -/
theorem headOutputs (c : Dev nD) : (W3 m ρ c (Proc.devRef .tc main_v10_0) : S2x16x2048x64.Idx → EReal)
    = attn (proj (m ((c : Thread nD τ).loc main_arg0)) (m ((c : Thread nD τ).loc main_arg1)) (m ((c : Thread nD τ).loc main_arg2)))
        (proj (m ((c : Thread nD τ).loc main_arg0)) (m ((c : Thread nD τ).loc main_arg3)) (m ((c : Thread nD τ).loc main_arg4)))
        (proj (m ((c : Thread nD τ).loc main_arg0)) (m ((c : Thread nD τ).loc main_arg5)) (m ((c : Thread nD τ).loc main_arg6))) := by
  refine ((W3_arr m ρ c 3).trans (Cert.Mha.Attn.attn_final (V2 m ρ) c)).trans ?_
  rw [queries m ρ c, keys m ρ c, values m ρ c]

/-- The second result: the attention weights. -/
theorem weights_eq (c : Dev nD) : (W6 m ρ c (Proc.devRef .tc main_v10_1) : S2x16x2048x2048.Idx → EReal)
    = resultWeights (m ((c : Thread nD τ).loc main_arg0)) (m ((c : Thread nD τ).loc main_arg1)) (m ((c : Thread nD τ).loc main_arg2))
        (m ((c : Thread nD τ).loc main_arg3)) (m ((c : Thread nD τ).loc main_arg4)) := by
  rw [exit_weights m ρ c]
  refine ((W3_arr m ρ c 4).trans (Cert.Mha.Attn.weights_final (V2 m ρ) c)).trans ?_
  rw [queries m ρ c, keys m ρ c]
  rfl

/-- The first result: the projected attention output. -/
theorem result_eq (c : Dev nD) : (W6 m ρ c (Proc.devRef .tc main_v16) : S2x2048x1024.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  funext j
  obtain ⟨n, s, e, rfl⟩ : ∃ (n : Fin 2) (s : Fin 2048) (e : Fin 1024), j = ix3 n s e := ⟨j 0, j 1, j 2, eq_ix3 j⟩
  rw [exit_result_apply m ρ c n s e]
  have h5 : (W5 m ρ c (Proc.devRef .tc main_v15) : S4096x1024.Idx → EReal)
      = Cert.Mha.Lin.lin (V4 m ρ c main_v12) (V4 m ρ c main_v13) (V4 m ρ c main_v14) :=
    (W5_arr m ρ c 3).trans (Cert.Mha.Lin.final (V4 m ρ) c)
  rw [h5]
  show Cert.Mha.Lin.linAt (V4 m ρ c main_v12) (V4 m ρ c main_v13) (V4 m ρ c main_v14) (rowIdx n s) e = outAt _ _ _ n s e
  unfold Cert.Mha.Lin.linAt outAt
  rw [entry2_bo_apply m ρ c e, entry2_wo m ρ c]
  refine congrArg (· + _) (Finset.sum_congr rfl fun k _ => ?_)
  rw [entry2_rows_apply m ρ c n s k, headOutputs m ρ c]

/-- The kernel's run with both results as functions of the argument arrays. -/
theorem run : θ_run defs (onTc (τ := τ) (main (F := Ideal))) ⟨m, fun _ => 0, ρ⟩ (fun r => ∀ c : Dev nD,
      r.2.mem ((c.tc : Thread nD τ).loc main_v16) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
      ∧ r.2.mem ((c.tc : Thread nD τ).loc main_v10_1) = resultWeights (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2.1.trans (weights_eq m ρ c), (h c).2.2⟩)
    (Cert.Mha.Run.run_named (F := Ideal) m ρ)

end Cert.Mha.Kernel

end
-- ==== Proof.LibMaxReduce4.lean ====
/-
  A maximum reduction over the LAST axis of an `[a, b, c, d]` array, read at an index, at the ideal values.

  On the extended reals the host's one-operand reduce with a maximum body is, at the index `(p, q, r)` of the result,
  the running maximum of the `d` entries `x (p, q, r, k)` from the initial value's element: a fold of `max` whose
  order does not matter.
-/
import proofs.«163356_j62843961475635_2_alg».proof.Proof.LibMaxReduce

noncomputable section

namespace Cert.LibMaxReduce

open Idealize.ShloMosaic Idealize.ShloMosaic.ValueIdx

/-- The host's one-operand reduce with a maximum body over the LAST axis of an `[a, b, c, d]` array, read at
    `(p, q, r)`: the running maximum of that line's `d` entries from the initial value's element. -/
theorem hostReduce_maximumf_lastAxis4_apply {a b c d : ℕ} {u : Shape} (x : (⟨4, ![a, b, c, d]⟩ : Shape).Idx → EReal)
    (init : u.Idx → EReal)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (p : Fin a) (q : Fin b) (r : Fin c) :
    Host.reduce (FloatOps.maximumf (F := Ideal) (φ := .f32)) x init h' hu (ix3 p q r)
      = foldMax (init (Shape.Idx.first hu)) (fun k : Fin d => x (ix4 p q r k)) := by
  refine (Host.reduce_eq_fold_single (FloatOps.maximumf (F := Ideal) (φ := .f32)) x init h' h hu (ix3 p q r)).trans ?_
  unfold foldMax
  refine congrArg (fun f : Fin d → EReal => Finset.fold max (init (Shape.Idx.first hu)) f Finset.univ) (funext fun k => congrArg x ?_)
  funext ax; apply Fin.ext
  match ax with
  | ⟨0, _⟩ => rfl
  | ⟨1, _⟩ => rfl
  | ⟨2, _⟩ => rfl
  | ⟨3, _⟩ => rfl

end Cert.LibMaxReduce

end
-- ==== Proof.RefRead.lean ====
/-
  The plain reference program computes multi-head self-attention, read index by index on the extended reals.

  Each stage of the reference is read at an index from the stage before it:
  • a projection Σ_k x(n, s, k) · W(e, k) + b(e), regrouped so that feature e = 64·h + d becomes lane d of head h;
  • the score (Σ_d Q(n, h, s, d) · K(n, h, t, d)) / √64, where √64 = 8 and a quotient by 8 is the product with 1/8;
  • the row maximum, a running maximum from −∞ (joining −∞ in once more changes nothing);
  • the exponential of each score's distance below its row's maximum, the row's sum of them (from 0), the quotient;
  • the weighted sum of the value rows, the heads laid side by side again (feature k is lane k % 64 of head k / 64),
    and the output projection.
-/
import proofs.«163356_j62843961475635_2_alg».proof.Proof.Gen.ReferenceIdeal.Read
import proofs.«163356_j62843961475635_2_alg».proof.Proof.MhaSpec
import proofs.«163356_j62843961475635_2_alg».proof.Proof.LibMaxReduce4

noncomputable section

namespace Cert.Mha.Ref

open Cert.ReferenceIdeal Cert.ReferenceIdeal.Gen Cert.ReferenceIdeal.Read Idealize.ShloMosaic Idealize.ShloMosaic.ValueIdx
  Cert.LibMaxReduce Cert.Mha

/-! ## The two scalar facts -/

/-- The f32 word of 64.0 denotes 64. -/
theorem ofBits_sixtyfour : Ideal.ofBits .f32 0x42800000#32 = ((64 : ℝ) : EReal) := by
  simp [Ideal.ofBits, Ideal.ieee]
  rw [← EReal.coe_mul]
  exact congrArg _ (by norm_num)

/-- The square root of 64 is 8. -/
theorem sqrt_sixtyfour : Ideal.sqrt (Ideal.ofBits .f32 0x42800000#32) = ((8 : ℝ) : EReal) := by
  rw [ofBits_sixtyfour, Ideal.sqrt_coe, if_neg (by norm_num)]
  refine congrArg _ ?_
  rw [show (64 : ℝ) = 8 * 8 by norm_num]
  exact Real.sqrt_mul_self (by norm_num)

/-- A quotient by √64 is the product with 1/8. -/
theorem div_sqrt_sixtyfour (z : EReal) : Ideal.div z (Ideal.sqrt (Ideal.ofBits .f32 0x42800000#32)) = z * scale := by
  rw [sqrt_sixtyfour]
  exact Ideal.div_coe (by norm_num) z

/-! ## A projection, split into heads -/

/-- Lane d of head h in the head-major layout is feature 64·h + d of row s in the row-major one. -/
theorem proj_read (x : Act) (W : Mat) (b : Bias) (n : Fin 2) (h : Fin 16) (s : Fin 2048) (d : Fin 64) :
    val_main_v5 (F := Ideal) x W b (ix4 n h s d) = projAt x W b n h s d := by
  have e4 : idx_main_v4 (idx_main_v5 (ix4 n h s d)) = ix3 n s (col h d) := funext fun a => Fin.ext (by
    have hn := n.isLt; have hh := h.isLt; have hs := s.isLt; have hd := d.isLt
    match a with
    | ⟨0, _⟩ => show (((n.val * 2048 + s.val) * 16 + h.val) * 64 + d.val) / 2097152 = n.val; omega
    | ⟨1, _⟩ => show (((n.val * 2048 + s.val) * 16 + h.val) * 64 + d.val) / 1024 % 2048 = s.val; omega
    | ⟨2, _⟩ => show (((n.val * 2048 + s.val) * 16 + h.val) * 64 + d.val) % 1024 = h.val * 64 + d.val; omega)
  rw [val_main_v5_apply, val_main_v4_apply, e4, val_main_v3_apply, val_main_v0_apply, val_main_v2_apply, val_main_v1_apply]
  unfold projAt
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- A projection, as a whole array. -/
theorem proj_eq (x : Act) (W : Mat) (b : Bias) : val_main_v5 (F := Ideal) x W b = proj x W b := by
  funext j
  obtain ⟨n, h, s, d, rfl⟩ : ∃ (n : Fin 2) (h : Fin 16) (s : Fin 2048) (d : Fin 64), j = ix4 n h s d :=
    ⟨j 0, j 1, j 2, j 3, eq_ix4 j⟩
  exact proj_read x W b n h s d

/-- The key projection is the same function of its activations, weights and bias as the query projection. -/
theorem proj_k_eq (x : Act) (W : Mat) (b : Bias) : val_main_v11 (F := Ideal) x W b = proj x W b :=
  (rfl : val_main_v11 (F := Ideal) x W b = val_main_v5 (F := Ideal) x W b).trans (proj_eq x W b)

/-- The value projection likewise. -/
theorem proj_v_eq (x : Act) (W : Mat) (b : Bias) : val_main_v17 (F := Ideal) x W b = proj x W b :=
  (rfl : val_main_v17 (F := Ideal) x W b = val_main_v5 (F := Ideal) x W b).trans (proj_eq x W b)

/-! ## Scores -/

/-- The score of query row s against key row t: the contraction over the 64 lanes, divided by √64. -/
theorem score_read (x0 : Act) (x1 : Mat) (x2 : Bias) (x3 : Mat) (x4 : Bias) (n : Fin 2) (h : Fin 16) (s t : Fin 2048) :
    val_main_v21 (F := Ideal) x0 x1 x2 x3 x4 (ix4 n h s t) = scoreAt (proj x0 x1 x2) (proj x0 x3 x4) n h s t := by
  rw [val_main_v21_apply, val_main_v18_apply, val_main_v20_apply, val_main_v19_apply, val_main_cst_apply, proj_k_eq, proj_eq]
  simp only [Ideal.hostDivf_def, Ideal.hostUnary_sqrt_def, Ideal.ofBits_def]
  rw [div_sqrt_sixtyfour]
  unfold scoreAt
  refine congrArg (· * scale) (Finset.sum_congr rfl fun k _ => congrArg₂ (· * ·) (congrArg _ ?_) (congrArg _ ?_))
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-! ## The row maximum -/

/-- The maximum of a row of scores: the running maximum from −∞, and −∞ joined in once more. -/
theorem rowMax_read (x0 : Act) (x1 : Mat) (x2 : Bias) (x3 : Mat) (x4 : Bias) (n : Fin 2) (h : Fin 16) (s : Fin 2048) :
    val_main_v24 (F := Ideal) x0 x1 x2 x3 x4 (ix3 n h s) = rowMax (proj x0 x1 x2) (proj x0 x3 x4) n h s := by
  have hm : val_main_v22 (F := Ideal) x0 x1 x2 x3 x4 (ix3 n h s)
      = foldMax negInf (fun t : Fin 2048 => scoreAt (proj x0 x1 x2) (proj x0 x3 x4) n h s t) := by
    unfold val_main_v22
    refine (hostReduce_maximumf_lastAxis4_apply (val_main_v21 (F := Ideal) x0 x1 x2 x3 x4) (val_main_cst_0 (F := Ideal))
      reducesTo_S2x16x2048x2048_S2x16x2048_d3 (by decide) h_S_ n h s).trans ?_
    show foldMax negInf _ = _
    exact congrArg (foldMax negInf) (funext fun t => score_read x0 x1 x2 x3 x4 n h s t)
  rw [val_main_v24_apply, val_main_v23_apply, val_main_cst_1_apply, hm]
  exact max_foldMax negInf _

/-! ## Exponentials, their row sums, the weights -/

/-- The exponential of a score's distance below its row's maximum. -/
theorem exp_read (x0 : Act) (x1 : Mat) (x2 : Bias) (x3 : Mat) (x4 : Bias) (n : Fin 2) (h : Fin 16) (s t : Fin 2048) :
    val_main_v28 (F := Ideal) x0 x1 x2 x3 x4 (ix4 n h s t) = expAt (proj x0 x1 x2) (proj x0 x3 x4) n h s t := by
  have e : idx_main_v25 (idx_main_v26 (ix4 n h s t)) = ix3 n h s :=
    funext fun a => Fin.ext (by match a with | ⟨0, _⟩ => rfl | ⟨1, _⟩ => rfl | ⟨2, _⟩ => rfl)
  rw [val_main_v28_apply, val_main_v27_apply, val_main_v26_apply, val_main_v25_apply, e, rowMax_read, score_read]
  rfl

/-- One attention weight: the exponential over its row's sum of exponentials (a sum started from 0). -/
theorem weight_read (x0 : Act) (x1 : Mat) (x2 : Bias) (x3 : Mat) (x4 : Bias) (n : Fin 2) (h : Fin 16) (s t : Fin 2048) :
    val_main_v32 (F := Ideal) x0 x1 x2 x3 x4 (ix4 n h s t) = weightAt (proj x0 x1 x2) (proj x0 x3 x4) n h s t := by
  have e : idx_main_v30 (idx_main_v31 (ix4 n h s t)) = ix3 n h s :=
    funext fun a => Fin.ext (by match a with | ⟨0, _⟩ => rfl | ⟨1, _⟩ => rfl | ⟨2, _⟩ => rfl)
  rw [val_main_v32_apply, val_main_v31_apply, val_main_v30_apply, e, val_main_v29_apply, val_main_cst_2_apply, exp_read]
  simp only [Ideal.hostDivf_def, Ideal.ofBits_def, Ideal.ofBits_zero_f32, zero_add]
  unfold weightAt
  refine congrArg (Ideal.div _) (Finset.sum_congr rfl fun u _ => ?_)
  have eu : idx_main_v29 (ix3 n h s) u = ix4 n h s u :=
    funext fun a => Fin.ext (by match a with | ⟨0, _⟩ => rfl | ⟨1, _⟩ => rfl | ⟨2, _⟩ => rfl | ⟨3, _⟩ => rfl)
  rw [eu]
  exact exp_read x0 x1 x2 x3 x4 n h s u

/-- The reference's second result is the attention weights. -/
theorem ref_weights (x0 : Act) (x1 : Mat) (x2 : Bias) (x3 : Mat) (x4 : Bias) :
    val_main_v32 (F := Ideal) x0 x1 x2 x3 x4 = resultWeights x0 x1 x2 x3 x4 := by
  funext j
  obtain ⟨n, h, s, t, rfl⟩ : ∃ (n : Fin 2) (h : Fin 16) (s t : Fin 2048), j = ix4 n h s t :=
    ⟨j 0, j 1, j 2, j 3, eq_ix4 j⟩
  exact weight_read x0 x1 x2 x3 x4 n h s t

/-! ## The heads' outputs and the output projection -/

/-- One entry of a head's output: the weighted sum of that head's value rows. -/
theorem attn_read (x0 : Act) (x1 : Mat) (x2 : Bias) (x3 : Mat) (x4 : Bias) (x5 : Mat) (x6 : Bias) (n : Fin 2) (h : Fin 16) (s : Fin 2048) (d : Fin 64) :
    val_main_v33 (F := Ideal) x0 x1 x2 x3 x4 x5 x6 (ix4 n h s d)
      = attnAt (proj x0 x1 x2) (proj x0 x3 x4) (proj x0 x5 x6) n h s d := by
  rw [val_main_v33_apply, proj_v_eq]
  unfold attnAt
  refine Finset.sum_congr rfl fun t _ => ?_
  have el : lidx_main_v33 (ix4 n h s d) t = ix4 n h s t :=
    funext fun a => Fin.ext (by match a with | ⟨0, _⟩ => rfl | ⟨1, _⟩ => rfl | ⟨2, _⟩ => rfl | ⟨3, _⟩ => rfl)
  have er : ridx_main_v33 (ix4 n h s d) t = ix4 n h t d :=
    funext fun a => Fin.ext (by match a with | ⟨0, _⟩ => rfl | ⟨1, _⟩ => rfl | ⟨2, _⟩ => rfl | ⟨3, _⟩ => rfl)
  rw [el, er, weight_read]

/-- One entry of the result: feature k of a row of the heads laid side by side is lane k % 64 of head k / 64. -/
theorem out_read (x0 : Act) (x1 : Mat) (x2 : Bias) (x3 : Mat) (x4 : Bias) (x5 : Mat) (x6 : Bias) (x7 : Mat) (x8 : Bias) (n : Fin 2) (s : Fin 2048) (e : Fin 1024) :
    val_main_v39 (F := Ideal) x0 x1 x2 x3 x4 x5 x6 x7 x8 (ix3 n s e)
      = outAt (attn (proj x0 x1 x2) (proj x0 x3 x4) (proj x0 x5 x6)) x7 x8 n s e := by
  rw [val_main_v39_apply, val_main_v36_apply, val_main_v38_apply, val_main_v37_apply]
  unfold outAt
  refine congrArg₂ (· + ·) (Finset.sum_congr rfl fun k _ => congrArg₂ (· * ·) ?_ (congrArg x7 ?_)) (congrArg x8 ?_)
  · have e35 : idx_main_v34 (idx_main_v35 (lidx_main_v36 (ix3 n s e) k)) = ix4 n (headOf k) s (laneOf k) :=
      funext fun a => Fin.ext (by
        have hn := n.isLt; have hs := s.isLt; have hk := k.isLt
        match a with
        | ⟨0, _⟩ => show ((n.val * 2048 + s.val) * 1024 + k.val) / 2097152 = n.val; omega
        | ⟨1, _⟩ => show ((n.val * 2048 + s.val) * 1024 + k.val) / 64 % 16 = k.val / 64; omega
        | ⟨2, _⟩ => show ((n.val * 2048 + s.val) * 1024 + k.val) / 1024 % 2048 = s.val; omega
        | ⟨3, _⟩ => show ((n.val * 2048 + s.val) * 1024 + k.val) % 64 = k.val % 64; omega)
    rw [val_main_v35_apply, val_main_v34_apply, e35, attn_read]
    rfl
  · exact funext fun a => Fin.ext (by match a with | ⟨0, _⟩ => rfl | ⟨1, _⟩ => rfl)
  · exact funext fun a => Fin.ext (by match a with | ⟨0, _⟩ => rfl)

/-- The reference's first result is the projected attention output. -/
theorem ref_result (x0 : Act) (x1 : Mat) (x2 : Bias) (x3 : Mat) (x4 : Bias) (x5 : Mat) (x6 : Bias) (x7 : Mat) (x8 : Bias) :
    val_main_v39 (F := Ideal) x0 x1 x2 x3 x4 x5 x6 x7 x8 = result x0 x1 x2 x3 x4 x5 x6 x7 x8 := by
  funext j
  obtain ⟨n, s, e, rfl⟩ : ∃ (n : Fin 2) (s : Fin 2048) (e : Fin 1024), j = ix3 n s e := ⟨j 0, j 1, j 2, eq_ix3 j⟩
  exact out_read x0 x1 x2 x3 x4 x5 x6 x7 x8 n s e

end Cert.Mha.Ref

end
-- ==== Proof.lean ====
/-
  A fused multi-head self-attention kernel against its plain reference, on the extended reals.

  The kernel runs three launches — a fused query/key/value projection written head by head, the attention proper
  (scores, a softmax over each row, the weighted sum of the value rows), and the output projection — among a few
  reshapes on the host; the reference computes the same layer with whole-array operations. Both end with the same two
  arrays: the projected attention output and the attention weights. Read index by index on the extended reals the two
  programs compute one function of the nine argument arrays (Proof/MhaSpec.lean): a different tiling, a change of float
  format, a product kept as a sum over one contracted axis and a sum's grouping change nothing there, and the one
  scalar the two spell differently agrees — the kernel multiplies the scores by the word of 0.125, the reference
  divides them by √64 = 8, and a quotient by 8 is the product with 1/8 on every extended real. No finiteness of the
  inputs is used.
  The kernel's side is Proof/KernelValue.lean (over Proof/NamedRun.lean, Proof/Region0.lean, Proof/Region1.lean,
  Proof/Region2.lean, Proof/HostSteps.lean), the reference's side Proof/RefRead.lean.
-/
import proofs.«163356_j62843961475635_2_alg».proof.Defs
import proofs.«163356_j62843961475635_2_alg».proof.Proof.Gen.Kernel
import proofs.«163356_j62843961475635_2_alg».proof.Proof.Gen.Kernel.Skeleton
import proofs.«163356_j62843961475635_2_alg».proof.Proof.Gen.Kernel.Launch
import proofs.«163356_j62843961475635_2_alg».proof.Proof.Gen.Kernel.Points
import proofs.«163356_j62843961475635_2_alg».proof.Proof.Gen.Kernel.Frame
import proofs.«163356_j62843961475635_2_alg».proof.Proof.Gen.KernelIdeal
import proofs.«163356_j62843961475635_2_alg».proof.Proof.Gen.KernelIdeal.Skeleton
import proofs.«163356_j62843961475635_2_alg».proof.Proof.Gen.KernelIdeal.Launch
import proofs.«163356_j62843961475635_2_alg».proof.Proof.Gen.KernelIdeal.Points
import proofs.«163356_j62843961475635_2_alg».proof.Proof.Gen.KernelIdeal.Frame
import proofs.«163356_j62843961475635_2_alg».proof.Proof.Gen.ReferenceIdeal
import proofs.«163356_j62843961475635_2_alg».proof.Proof.Gen.ReferenceIdeal.Run
import proofs.«163356_j62843961475635_2_alg».proof.Proof.Gen.ReferenceIdeal.Read
import proofs.«163356_j62843961475635_2_alg».proof.Proof.Gen.Pre_finite_inputs
import proofs.«163356_j62843961475635_2_alg».proof.Proof.KernelValue
import proofs.«163356_j62843961475635_2_alg».proof.Proof.RefRead
import Idealize.ShloMosaic.Adequacy
import Idealize.ShloMosaic.Init

noncomputable section

namespace Cert.Proof

open Idealize.ShloMosaic Idealize.SL.Sem

/-- The kernel as printed runs to the end with its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs to the end with its arguments unchanged: its run, with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories agreeing on the nine arguments both programs end with the layer's output and its attention
    weights: the kernel by its launches read back to the arguments, the reference by its operations read in order. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.Mha.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v39_eq, Cert.Mha.Ref.ref_result, a0, a1, a2, a3, a4, a5, a6, a7, a8]
  · rw [Cert.ReferenceIdeal.Read.val_main_v32_eq, Cert.Mha.Ref.ref_weights, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
